-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S1 : Shape := ⟨1, ![1]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : IVec S1 32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S100000x64 : Shape := ⟨2, ![100000, 64]⟩
abbrev S1600000 : Shape := ⟨1, ![1600000]⟩
abbrev S1 : Shape := ⟨1, ![1]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S5000x1 : Shape := ⟨2, ![5000, 1]⟩
abbrev S1x64 : Shape := ⟨2, ![1, 64]⟩
abbrev S5000 : Shape := ⟨1, ![5000]⟩
abbrev S300000 : Shape := ⟨1, ![300000]⟩
abbrev S100000x192 : Shape := ⟨2, ![100000, 192]⟩

abbrev nBuf : Space → Nat
  | .hbm => 94
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x1, .f32⟩
  | .hbm, ⟨89, _⟩ => ⟨S100000, .f32⟩
  | .hbm, ⟨90, _⟩ => ⟨S100000, .f32⟩
  | .hbm, ⟨91, _⟩ => ⟨S100000, .f32⟩
  | .hbm, ⟨92, _⟩ => ⟨S300000, .f32⟩
  | .hbm, ⟨93, _⟩ => ⟨S100000x192, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  concatenates_S100000_S100000_S100000_S300000_d0 : Shape.Concatenates [S100000, S100000, S100000] S300000 0
  concatenates_S100000x64_S100000x64_S100000x64_S100000x192_d1 : Shape.Concatenates [S100000x64, S100000x64, S100000x64] S100000x192 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42_1) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v57_1) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S1 : Shape := ⟨1, ![1]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S300000 : Shape := ⟨1, ![300000]⟩
abbrev S100000x192 : Shape := ⟨2, ![100000, 192]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S300000, .f32⟩
  | .hbm, ⟨111, _⟩ => ⟨S100000x192, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call3_cst : Ref sig .tc := ⟨.hbm, 77, rfl⟩
abbrev main_call3_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call4_cst : Ref sig .tc := ⟨.hbm, 101, rfl⟩
abbrev main_call4_v0 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  concatenates_S100000_S100000_S100000_S300000_d0 : Shape.Concatenates [S100000, S100000, S100000] S300000 0
  concatenates_S100000x64_S100000x64_S100000x64_S100000x192_d1 : Shape.Concatenates [S100000x64, S100000x64, S100000x64] S100000x192 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KB.Region0.lean ====
/-
  The dense layer `h = max(x · W + b, 0)`, `s = row sums of h`, as the FIRST of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out0_3` — the body's first payload of the three loads — and window 4 the single piece `out0_4`, each covering its
  buffer. From this the region's proof data (`dat0`) and the pipeline library's body obligation follow: inputs are read
  only, so every input buffer holds its window's block at every point, fetched there or carried over.
-/
import proofs.«169731_j81655918231565_1_alg».proof.Proof.Gen.Kernel.Launch
import proofs.«169731_j81655918231565_1_alg».proof.Proof.Gen.Kernel.Skeleton
import proofs.«169731_j81655918231565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` staged at a point are in window 0's buffer when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- `W`, fetched once, is in window 1's buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- `b`, fetched once, is in window 2's buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rc0_x : Rect S5000x64 := Rect.unit (s := S5000x64) ![0, 0] S5000x64.size inb_S5000x64_S5000x64_0_0
abbrev rc0_w : Rect S64x64 := Rect.unit (s := S64x64) ![0, 0] S64x64.size inb_S64x64_S64x64_0_0
abbrev rc0_b : Rect S64 := Rect.unit (s := S64) ![0] S64.size inb_S64_S64_0
abbrev rc0_s : Rect S5000x1 := Rect.unit (s := S5000x1) ![0, 0] S5000x1.size inb_S5000x1_S5000x1_0_0

/-! ## What the body leaves in each output window's buffer -/

/-- Window 3's buffer after the body: the block of `h`, one whole store. -/
def out0_3 (x0 : Vec F S5000x64 .f32) (x1 : Vec F S64x64 .f32) (x2 : Vec F S64 .f32) : Vec F S5000x64 .f32 :=
  View.canon [⟨rc0_x, k0_pay1 (View.ld x0 rc0_x) (View.ld x1 rc0_w) (View.ld x2 rc0_b)⟩]
/-- Window 4's buffer after the body: the column of the block's row sums, one whole store. -/
def out0_4 (x0 : Vec F S5000x64 .f32) (x1 : Vec F S64x64 .f32) (x2 : Vec F S64 .f32) : Vec F S5000x1 .f32 :=
  View.canon [⟨rc0_s, k0_pay2 (View.ld x0 rc0_x) (View.ld x1 rc0_w) (View.ld x2 rc0_b)⟩]

theorem cover0_3 (p0 : Vec F S5000x64 .f32) (y : S5000x64.Idx) :
    ∃ pc ∈ ([⟨rc0_x, p0⟩] : List (View.Piece (Elt F) S5000x64 .f32)), y ∈ pc.1.set :=
  View.cover_of_tiled [⟨rc0_x, p0⟩] S5000x64.size (by rfl) y
theorem cover0_4 (p0 : Vec F S5000x1 .f32) (y : S5000x1.Idx) :
    ∃ pc ∈ ([⟨rc0_s, p0⟩] : List (View.Piece (Elt F) S5000x1 .f32)), y ∈ pc.1.set :=
  View.cover_of_tiled [⟨rc0_s, p0⟩] S5000x1.size (by rfl) y

/-! ## The body's triple -/

set_option maxHeartbeats 1000000 in
/-- From the three input buffers held whole at `x0`, `x1`, `x2` and the two output buffers at anything, the body runs to
    its return with the inputs as they were and the outputs at `out0_3`, `out0_4` of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__gcn_layer_kernel i arg1 harg1 arg2 harg2 arg3 harg3 arg4 harg4 arg5 harg5) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The region's proof data -/

/-- The arrays as the region finds them; after the body at point `t` each input's buffer at its block and each output's
    at the body's piece of the input blocks; the scoped rest and the generator register ride along; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layer

end
-- ==== Proof.KB.Region1.lean ====
/-
  The dense layer `h = max(x · W + b, 0)`, `s = row sums of h`, as the SECOND of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out1_3` — the body's first payload of the three loads — and window 4 the single piece `out1_4`, each covering its
  buffer. From this the region's proof data (`dat1`) and the pipeline library's body obligation follow: inputs are read
  only, so every input buffer holds its window's block at every point, fetched there or carried over.
-/
import proofs.«169731_j81655918231565_1_alg».proof.Proof.Gen.Kernel.Launch
import proofs.«169731_j81655918231565_1_alg».proof.Proof.Gen.Kernel.Skeleton
import proofs.«169731_j81655918231565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x` staged at a point are in window 0's buffer when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- `W`, fetched once, is in window 1's buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- `b`, fetched once, is in window 2's buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rc1_x : Rect S5000x64 := Rect.unit (s := S5000x64) ![0, 0] S5000x64.size inb_S5000x64_S5000x64_0_0
abbrev rc1_w : Rect S64x64 := Rect.unit (s := S64x64) ![0, 0] S64x64.size inb_S64x64_S64x64_0_0
abbrev rc1_b : Rect S64 := Rect.unit (s := S64) ![0] S64.size inb_S64_S64_0
abbrev rc1_s : Rect S5000x1 := Rect.unit (s := S5000x1) ![0, 0] S5000x1.size inb_S5000x1_S5000x1_0_0

/-! ## What the body leaves in each output window's buffer -/

/-- Window 3's buffer after the body: the block of `h`, one whole store. -/
def out1_3 (x0 : Vec F S5000x64 .f32) (x1 : Vec F S64x64 .f32) (x2 : Vec F S64 .f32) : Vec F S5000x64 .f32 :=
  View.canon [⟨rc1_x, k1_pay1 (View.ld x0 rc1_x) (View.ld x1 rc1_w) (View.ld x2 rc1_b)⟩]
/-- Window 4's buffer after the body: the column of the block's row sums, one whole store. -/
def out1_4 (x0 : Vec F S5000x64 .f32) (x1 : Vec F S64x64 .f32) (x2 : Vec F S64 .f32) : Vec F S5000x1 .f32 :=
  View.canon [⟨rc1_s, k1_pay2 (View.ld x0 rc1_x) (View.ld x1 rc1_w) (View.ld x2 rc1_b)⟩]

theorem cover1_3 (p0 : Vec F S5000x64 .f32) (y : S5000x64.Idx) :
    ∃ pc ∈ ([⟨rc1_x, p0⟩] : List (View.Piece (Elt F) S5000x64 .f32)), y ∈ pc.1.set :=
  View.cover_of_tiled [⟨rc1_x, p0⟩] S5000x64.size (by rfl) y
theorem cover1_4 (p0 : Vec F S5000x1 .f32) (y : S5000x1.Idx) :
    ∃ pc ∈ ([⟨rc1_s, p0⟩] : List (View.Piece (Elt F) S5000x1 .f32)), y ∈ pc.1.set :=
  View.cover_of_tiled [⟨rc1_s, p0⟩] S5000x1.size (by rfl) y

/-! ## The body's triple -/

set_option maxHeartbeats 1000000 in
/-- From the three input buffers held whole at `x0`, `x1`, `x2` and the two output buffers at anything, the body runs to
    its return with the inputs as they were and the outputs at `out1_3`, `out1_4` of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__gcn_layer_kernel i arg1 harg1 arg2 harg2 arg3 harg3 arg4 harg4 arg5 harg5) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The region's proof data -/

/-- The arrays as the region finds them; after the body at point `t` each input's buffer at its block and each output's
    at the body's piece of the input blocks; the scoped rest and the generator register ride along; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layer

end
-- ==== Proof.KB.Region2.lean ====
/-
  The dense layer `h = max(x · W + b, 0)`, `s = row sums of h`, as the THIRD of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out2_3` — the body's first payload of the three loads — and window 4 the single piece `out2_4`, each covering its
  buffer. From this the region's proof data (`dat2`) and the pipeline library's body obligation follow: inputs are read
  only, so every input buffer holds its window's block at every point, fetched there or carried over.
-/
import proofs.«169731_j81655918231565_1_alg».proof.Proof.Gen.Kernel.Launch
import proofs.«169731_j81655918231565_1_alg».proof.Proof.Gen.Kernel.Skeleton
import proofs.«169731_j81655918231565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of `x` staged at a point are in window 0's buffer when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- `W`, fetched once, is in window 1's buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- `b`, fetched once, is in window 2's buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rc2_x : Rect S5000x64 := Rect.unit (s := S5000x64) ![0, 0] S5000x64.size inb_S5000x64_S5000x64_0_0
abbrev rc2_w : Rect S64x64 := Rect.unit (s := S64x64) ![0, 0] S64x64.size inb_S64x64_S64x64_0_0
abbrev rc2_b : Rect S64 := Rect.unit (s := S64) ![0] S64.size inb_S64_S64_0
abbrev rc2_s : Rect S5000x1 := Rect.unit (s := S5000x1) ![0, 0] S5000x1.size inb_S5000x1_S5000x1_0_0

/-! ## What the body leaves in each output window's buffer -/

/-- Window 3's buffer after the body: the block of `h`, one whole store. -/
def out2_3 (x0 : Vec F S5000x64 .f32) (x1 : Vec F S64x64 .f32) (x2 : Vec F S64 .f32) : Vec F S5000x64 .f32 :=
  View.canon [⟨rc2_x, k2_pay1 (View.ld x0 rc2_x) (View.ld x1 rc2_w) (View.ld x2 rc2_b)⟩]
/-- Window 4's buffer after the body: the column of the block's row sums, one whole store. -/
def out2_4 (x0 : Vec F S5000x64 .f32) (x1 : Vec F S64x64 .f32) (x2 : Vec F S64 .f32) : Vec F S5000x1 .f32 :=
  View.canon [⟨rc2_s, k2_pay2 (View.ld x0 rc2_x) (View.ld x1 rc2_w) (View.ld x2 rc2_b)⟩]

theorem cover2_3 (p0 : Vec F S5000x64 .f32) (y : S5000x64.Idx) :
    ∃ pc ∈ ([⟨rc2_x, p0⟩] : List (View.Piece (Elt F) S5000x64 .f32)), y ∈ pc.1.set :=
  View.cover_of_tiled [⟨rc2_x, p0⟩] S5000x64.size (by rfl) y
theorem cover2_4 (p0 : Vec F S5000x1 .f32) (y : S5000x1.Idx) :
    ∃ pc ∈ ([⟨rc2_s, p0⟩] : List (View.Piece (Elt F) S5000x1 .f32)), y ∈ pc.1.set :=
  View.cover_of_tiled [⟨rc2_s, p0⟩] S5000x1.size (by rfl) y

/-! ## The body's triple -/

set_option maxHeartbeats 1000000 in
/-- From the three input buffers held whole at `x0`, `x1`, `x2` and the two output buffers at anything, the body runs to
    its return with the inputs as they were and the outputs at `out2_3`, `out2_4` of the inputs. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__gcn_layer_kernel i arg1 harg1 arg2 harg2 arg3 harg3 arg4 harg4 arg5 harg5) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The region's proof data -/

/-- The arrays as the region finds them; after the body at point `t` each input's buffer at its block and each output's
    at the body's piece of the input blocks; the scoped rest and the generator register ride along; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layer

end
-- ==== Proof.KB.Run.lean ====
/-
  The whole program as eleven segments — eight stretches of host operations and the three dense-layer regions between
  them — from the launch to the return, at any float instance.

  `W0 … W11` are the TensorCore's unscoped buffer contents at the twelve segment boundaries: the launch memory; after a
  host stretch, the stretch's operations applied in order (`StableHlo.after`); after a region, the region's five arrays at
  what its pipeline leaves and everything else as entered. Each region's proof data is taken at the contents its region
  is entered with. The run then says: every weakly fair execution of @main terminates, and EVERY unscoped buffer ends
  at `W11`. The frame claim (the ten arguments end as launched) and the two results' values are both read off this.
-/
import proofs.«169731_j81655918231565_1_alg».proof.Proof.KB.Region0
import proofs.«169731_j81655918231565_1_alg».proof.Proof.KB.Region1
import proofs.«169731_j81655918231565_1_alg».proof.Proof.KB.Region2
import proofs.«169731_j81655918231565_1_alg».proof.Proof.Gen.Kernel.Regions

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- At launch. -/
abbrev W0 : Dev nD → Valuation τ sig (Elt F) := fun c b => m (c, b)
/-- After the constants and the two degree counts. -/
abbrev W1 : Dev nD → Valuation τ sig (Elt F) := fun c => StableHlo.after hostOps0 (W0 m c)
/-- After the out-degrees are clipped below at 1. -/
abbrev W2 : Dev nD → Valuation τ sig (Elt F) := fun c => StableHlo.after hostOps0_1 (W1 m c)
/-- After their inverse square roots, as a column. -/
abbrev W3 : Dev nD → Valuation τ sig (Elt F) := fun c => StableHlo.after hostOps0_2 (W2 m c)
/-- After the in-degrees are clipped below at 1. -/
abbrev W4 : Dev nD → Valuation τ sig (Elt F) := fun c => StableHlo.after hostOps0_3 (W3 m c)
/-- After the first message passing: region 0's entry. -/
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b

/-- After region 0: its arrays at what the pipeline leaves (an input's as entered, an output's the fold of its
    write-backs), every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- An input window's array leaves region 0 as it entered: the pipeline stages it and never writes it back. -/
theorem W6_in (c : Dev nD) (w : Fin cfg0.W) (hw : (cfg0.win w).isOut = false) :
    W6 m c (Proc.devRef .tc (Pipeline.arrRef spec0 w)) = W5 m c (Proc.devRef .tc (Pipeline.arrRef spec0 w)) :=
  (W6_arr m c w).trans (((dat0 (V5 m) c).arrAt_in w hw _).trans (A_eq0 (V5 m) c w))

/-- After the second message passing: region 1's entry. -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b

/-- After region 1: its arrays at what the pipeline leaves (an input's as entered, an output's the fold of its
    write-backs), every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- An input window's array leaves region 1 as it entered: the pipeline stages it and never writes it back. -/
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (V7 m) c).arrAt_in w hw _).trans (A_eq1 (V7 m) c w))

/-- After the third message passing: region 2's entry. -/
abbrev W9 : Dev nD → Valuation τ sig (Elt F) := fun c => StableHlo.after hostOps2 (W8 m c)
abbrev V9 : (c : Dev nD) → (b : Ref sig .tc) → Buf (Elt F) ((c : Thread nD τ).loc b) := fun c b => W9 m c b

/-- After region 2: its arrays at what the pipeline leaves (an input's as entered, an output's the fold of its
    write-backs), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- An input window's array leaves region 2 as it entered: the pipeline stages it and never writes it back. -/
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (V9 m) c).arrAt_in w hw _).trans (A_eq2 (V9 m) c w))

/-- After the two concatenations: the return. -/
abbrev W11 : Dev nD → Valuation τ sig (Elt F) := fun c => StableHlo.after hostOps3 (W10 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues,
    none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W11`, the generator register at some state. -/
abbrev Tₙ (c : Dev nD) : sProp 𝕄 := iprop(StableHlo.held (c : Thread nD τ) (Pipeline.ucRefs τ sig) (W11 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W5`, left with them at `W6`. Its five
    arrays are split out of the unscoped buffers and put back at what the pipeline leaves; the generator register goes
    into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W7`, left with them at `W8`. Its five
    arrays are split out of the unscoped buffers and put back at what the pipeline leaves; the generator register goes
    into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W9`, left with them at `W10`. Its five
    arrays are split out of the unscoped buffers and put back at what the pipeline leaves; the generator register goes
    into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)) ]

/-- The last host stretch's post is the last thread state beside the core's dues. -/
theorem last_link (c : Dev nD) :
    iprop(StableHlo.held (c : Thread nD τ) (Pipeline.ucRefs τ sig) (W11 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state every unscoped buffer of every core holds `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.Layer

end
-- ==== Proof.KB.Args.lean ====
/-
  The frame of the whole program: no host stretch writes an argument array, and a region either does not touch it or
  stages it through an input window and never writes it back — so each of the ten arguments is, at the return, what it
  was at the launch.
-/
import proofs.«169731_j81655918231565_1_alg».proof.Proof.KB.Run

set_option maxRecDepth 16384

noncomputable section

namespace Cert.Kernel.Layer

open Cert.Kernel Cert.Kernel.Gen
open Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

/-! ## A host stretch or a region leaves alone what it does not write -/

theorem keep1 (b : Ref sig .tc) (h : b ∉ hostOps0_W) : W1 m c (Proc.devRef .tc b) = W0 m c (Proc.devRef .tc b) := after_of_writes_sub hostOps0 _ hostOps0_writes h
theorem keep2 (b : Ref sig .tc) (h : b ∉ hostOps0_1_W) : W2 m c (Proc.devRef .tc b) = W1 m c (Proc.devRef .tc b) := after_of_writes_sub hostOps0_1 _ hostOps0_1_writes h
theorem keep3 (b : Ref sig .tc) (h : b ∉ hostOps0_2_W) : W3 m c (Proc.devRef .tc b) = W2 m c (Proc.devRef .tc b) := after_of_writes_sub hostOps0_2 _ hostOps0_2_writes h
theorem keep4 (b : Ref sig .tc) (h : b ∉ hostOps0_3_W) : W4 m c (Proc.devRef .tc b) = W3 m c (Proc.devRef .tc b) := after_of_writes_sub hostOps0_3 _ hostOps0_3_writes h
theorem keep5 (b : Ref sig .tc) (h : b ∉ hostOps0_4_W) : W5 m c (Proc.devRef .tc b) = W4 m c (Proc.devRef .tc b) := after_of_writes_sub hostOps0_4 _ hostOps0_4_writes h
theorem keep6 (b : Ref sig .tc) (h : ∀ w, Pipeline.arrRef spec0 w ≠ b) : W6 m c (Proc.devRef .tc b) = W5 m c (Proc.devRef .tc b) := W6_of_ne m c b h
theorem keep7 (b : Ref sig .tc) (h : b ∉ hostOps1_W) : W7 m c (Proc.devRef .tc b) = W6 m c (Proc.devRef .tc b) := after_of_writes_sub hostOps1 _ hostOps1_writes h
theorem keep8 (b : Ref sig .tc) (h : ∀ w, Pipeline.arrRef spec1 w ≠ b) : W8 m c (Proc.devRef .tc b) = W7 m c (Proc.devRef .tc b) := W8_of_ne m c b h
theorem keep9 (b : Ref sig .tc) (h : b ∉ hostOps2_W) : W9 m c (Proc.devRef .tc b) = W8 m c (Proc.devRef .tc b) := after_of_writes_sub hostOps2 _ hostOps2_writes h
theorem keep10 (b : Ref sig .tc) (h : ∀ w, Pipeline.arrRef spec2 w ≠ b) : W10 m c (Proc.devRef .tc b) = W9 m c (Proc.devRef .tc b) := W10_of_ne m c b h
theorem keep11 (b : Ref sig .tc) (h : b ∉ hostOps3_W) : W11 m c (Proc.devRef .tc b) = W10 m c (Proc.devRef .tc b) := after_of_writes_sub hostOps3 _ hostOps3_writes h

/-- What no host stretch before region 0 writes is, at region 0's entry, as launched. -/
theorem W5_of_kept (b : Ref sig .tc) (h0 : b ∉ hostOps0_W) (h1 : b ∉ hostOps0_1_W) (h2 : b ∉ hostOps0_2_W) (h3 : b ∉ hostOps0_3_W) (h4 : b ∉ hostOps0_4_W) :
    W5 m c (Proc.devRef .tc b) = m ((c.tc : Thread nD τ).loc b) :=
  (keep5 m c b h4).trans ((keep4 m c b h3).trans ((keep3 m c b h2).trans ((keep2 m c b h1).trans (keep1 m c b h0))))

/-- What no host stretch writes and every region leaves as entered is, at the return, as launched. -/
theorem W11_of_kept (b : Ref sig .tc) (h0 : b ∉ hostOps0_W) (h1 : b ∉ hostOps0_1_W) (h2 : b ∉ hostOps0_2_W) (h3 : b ∉ hostOps0_3_W) (h4 : b ∉ hostOps0_4_W)
    (h6 : W6 m c (Proc.devRef .tc b) = W5 m c (Proc.devRef .tc b)) (h7 : b ∉ hostOps1_W)
    (h8 : W8 m c (Proc.devRef .tc b) = W7 m c (Proc.devRef .tc b)) (h9 : b ∉ hostOps2_W)
    (h10 : W10 m c (Proc.devRef .tc b) = W9 m c (Proc.devRef .tc b)) (h11 : b ∉ hostOps3_W) :
    W11 m c (Proc.devRef .tc b) = m ((c.tc : Thread nD τ).loc b) :=
  (keep11 m c b h11).trans (h10.trans ((keep9 m c b h9).trans (h8.trans ((keep7 m c b h7).trans (h6.trans (W5_of_kept m c b h0 h1 h2 h3 h4))))))

theorem W11_arg0 : W11 m c (Proc.devRef .tc main_arg0) = m ((c.tc : Thread nD τ).loc main_arg0) :=
  W11_of_kept m c main_arg0 (by decide) (by decide) (by decide) (by decide) (by decide) (keep6 m c _ (by decide)) (by decide) (keep8 m c _ (by decide)) (by decide) (keep10 m c _ (by decide)) (by decide)
theorem W11_arg1 : W11 m c (Proc.devRef .tc main_arg1) = m ((c.tc : Thread nD τ).loc main_arg1) :=
  W11_of_kept m c main_arg1 (by decide) (by decide) (by decide) (by decide) (by decide) (keep6 m c _ (by decide)) (by decide) (keep8 m c _ (by decide)) (by decide) (keep10 m c _ (by decide)) (by decide)
theorem W11_arg2 : W11 m c (Proc.devRef .tc main_arg2) = m ((c.tc : Thread nD τ).loc main_arg2) :=
  W11_of_kept m c main_arg2 (by decide) (by decide) (by decide) (by decide) (by decide) (keep6 m c _ (by decide)) (by decide) (keep8 m c _ (by decide)) (by decide) (keep10 m c _ (by decide)) (by decide)
theorem W11_arg3 : W11 m c (Proc.devRef .tc main_arg3) = m ((c.tc : Thread nD τ).loc main_arg3) :=
  W11_of_kept m c main_arg3 (by decide) (by decide) (by decide) (by decide) (by decide) (keep6 m c _ (by decide)) (by decide) (keep8 m c _ (by decide)) (by decide) (keep10 m c _ (by decide)) (by decide)
theorem W11_arg4 : W11 m c (Proc.devRef .tc main_arg4) = m ((c.tc : Thread nD τ).loc main_arg4) :=
  W11_of_kept m c main_arg4 (by decide) (by decide) (by decide) (by decide) (by decide) (W6_in m c 1 rfl) (by decide) (keep8 m c _ (by decide)) (by decide) (keep10 m c _ (by decide)) (by decide)
theorem W11_arg5 : W11 m c (Proc.devRef .tc main_arg5) = m ((c.tc : Thread nD τ).loc main_arg5) :=
  W11_of_kept m c main_arg5 (by decide) (by decide) (by decide) (by decide) (by decide) (W6_in m c 2 rfl) (by decide) (keep8 m c _ (by decide)) (by decide) (keep10 m c _ (by decide)) (by decide)
theorem W11_arg6 : W11 m c (Proc.devRef .tc main_arg6) = m ((c.tc : Thread nD τ).loc main_arg6) :=
  W11_of_kept m c main_arg6 (by decide) (by decide) (by decide) (by decide) (by decide) (keep6 m c _ (by decide)) (by decide) (W8_in m c 1 rfl) (by decide) (keep10 m c _ (by decide)) (by decide)
theorem W11_arg7 : W11 m c (Proc.devRef .tc main_arg7) = m ((c.tc : Thread nD τ).loc main_arg7) :=
  W11_of_kept m c main_arg7 (by decide) (by decide) (by decide) (by decide) (by decide) (keep6 m c _ (by decide)) (by decide) (W8_in m c 2 rfl) (by decide) (keep10 m c _ (by decide)) (by decide)
theorem W11_arg8 : W11 m c (Proc.devRef .tc main_arg8) = m ((c.tc : Thread nD τ).loc main_arg8) :=
  W11_of_kept m c main_arg8 (by decide) (by decide) (by decide) (by decide) (by decide) (keep6 m c _ (by decide)) (by decide) (keep8 m c _ (by decide)) (by decide) (W10_in m c 1 rfl) (by decide)
theorem W11_arg9 : W11 m c (Proc.devRef .tc main_arg9) = m ((c.tc : Thread nD τ).loc main_arg9) :=
  W11_of_kept m c main_arg9 (by decide) (by decide) (by decide) (by decide) (by decide) (keep6 m c _ (by decide)) (by decide) (keep8 m c _ (by decide)) (by decide) (W10_in m c 2 rfl) (by decide)

/-- THE FRAME: every weakly fair execution of @main terminates, nothing faulting, with the ten argument arrays as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c),
     (h c _ (mem_uc main_arg4 (by decide))).trans (W11_arg4 m c),
     (h c _ (mem_uc main_arg5 (by decide))).trans (W11_arg5 m c),
     (h c _ (mem_uc main_arg6 (by decide))).trans (W11_arg6 m c),
     (h c _ (mem_uc main_arg7 (by decide))).trans (W11_arg7 m c),
     (h c _ (mem_uc main_arg8 (by decide))).trans (W11_arg8 m c),
     (h c _ (mem_uc main_arg9 (by decide))).trans (W11_arg9 m c)⟩)
    (run_all m ρ)

end Cert.Kernel.Layer

end
-- ==== Proof.KI.Region0.lean ====
/-
  The dense layer `h = max(x · W + b, 0)`, `s = row sums of h`, as the FIRST of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out0_3` — the body's first payload of the three loads — and window 4 the single piece `out0_4`, each covering its
  buffer. From this the region's proof data (`dat0`) and the pipeline library's body obligation follow: inputs are read
  only, so every input buffer holds its window's block at every point, fetched there or carried over.
-/
import proofs.«169731_j81655918231565_1_alg».proof.Proof.Gen.KernelIdeal.Launch
import proofs.«169731_j81655918231565_1_alg».proof.Proof.Gen.KernelIdeal.Skeleton
import proofs.«169731_j81655918231565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` staged at a point are in window 0's buffer when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- `W`, fetched once, is in window 1's buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- `b`, fetched once, is in window 2's buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rc0_x : Rect S5000x64 := Rect.unit (s := S5000x64) ![0, 0] S5000x64.size inb_S5000x64_S5000x64_0_0
abbrev rc0_w : Rect S64x64 := Rect.unit (s := S64x64) ![0, 0] S64x64.size inb_S64x64_S64x64_0_0
abbrev rc0_b : Rect S64 := Rect.unit (s := S64) ![0] S64.size inb_S64_S64_0
abbrev rc0_s : Rect S5000x1 := Rect.unit (s := S5000x1) ![0, 0] S5000x1.size inb_S5000x1_S5000x1_0_0

/-! ## What the body leaves in each output window's buffer -/

/-- Window 3's buffer after the body: the block of `h`, one whole store. -/
def out0_3 (x0 : Vec F S5000x64 .f32) (x1 : Vec F S64x64 .f32) (x2 : Vec F S64 .f32) : Vec F S5000x64 .f32 :=
  View.canon [⟨rc0_x, k0_pay1 (View.ld x0 rc0_x) (View.ld x1 rc0_w) (View.ld x2 rc0_b)⟩]
/-- Window 4's buffer after the body: the column of the block's row sums, one whole store. -/
def out0_4 (x0 : Vec F S5000x64 .f32) (x1 : Vec F S64x64 .f32) (x2 : Vec F S64 .f32) : Vec F S5000x1 .f32 :=
  View.canon [⟨rc0_s, k0_pay2 (View.ld x0 rc0_x) (View.ld x1 rc0_w) (View.ld x2 rc0_b)⟩]

theorem cover0_3 (p0 : Vec F S5000x64 .f32) (y : S5000x64.Idx) :
    ∃ pc ∈ ([⟨rc0_x, p0⟩] : List (View.Piece (Elt F) S5000x64 .f32)), y ∈ pc.1.set :=
  View.cover_of_tiled [⟨rc0_x, p0⟩] S5000x64.size (by rfl) y
theorem cover0_4 (p0 : Vec F S5000x1 .f32) (y : S5000x1.Idx) :
    ∃ pc ∈ ([⟨rc0_s, p0⟩] : List (View.Piece (Elt F) S5000x1 .f32)), y ∈ pc.1.set :=
  View.cover_of_tiled [⟨rc0_s, p0⟩] S5000x1.size (by rfl) y

/-! ## The body's triple -/

set_option maxHeartbeats 1000000 in
/-- From the three input buffers held whole at `x0`, `x1`, `x2` and the two output buffers at anything, the body runs to
    its return with the inputs as they were and the outputs at `out0_3`, `out0_4` of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__gcn_layer_kernel i arg1 harg1 arg2 harg2 arg3 harg3 arg4 harg4 arg5 harg5) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The region's proof data -/

/-- The arrays as the region finds them; after the body at point `t` each input's buffer at its block and each output's
    at the body's piece of the input blocks; the scoped rest and the generator register ride along; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layer

end
-- ==== Proof.KI.Region1.lean ====
/-
  The dense layer `h = max(x · W + b, 0)`, `s = row sums of h`, as the SECOND of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out1_3` — the body's first payload of the three loads — and window 4 the single piece `out1_4`, each covering its
  buffer. From this the region's proof data (`dat1`) and the pipeline library's body obligation follow: inputs are read
  only, so every input buffer holds its window's block at every point, fetched there or carried over.
-/
import proofs.«169731_j81655918231565_1_alg».proof.Proof.Gen.KernelIdeal.Launch
import proofs.«169731_j81655918231565_1_alg».proof.Proof.Gen.KernelIdeal.Skeleton
import proofs.«169731_j81655918231565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x` staged at a point are in window 0's buffer when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- `W`, fetched once, is in window 1's buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- `b`, fetched once, is in window 2's buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rc1_x : Rect S5000x64 := Rect.unit (s := S5000x64) ![0, 0] S5000x64.size inb_S5000x64_S5000x64_0_0
abbrev rc1_w : Rect S64x64 := Rect.unit (s := S64x64) ![0, 0] S64x64.size inb_S64x64_S64x64_0_0
abbrev rc1_b : Rect S64 := Rect.unit (s := S64) ![0] S64.size inb_S64_S64_0
abbrev rc1_s : Rect S5000x1 := Rect.unit (s := S5000x1) ![0, 0] S5000x1.size inb_S5000x1_S5000x1_0_0

/-! ## What the body leaves in each output window's buffer -/

/-- Window 3's buffer after the body: the block of `h`, one whole store. -/
def out1_3 (x0 : Vec F S5000x64 .f32) (x1 : Vec F S64x64 .f32) (x2 : Vec F S64 .f32) : Vec F S5000x64 .f32 :=
  View.canon [⟨rc1_x, k1_pay1 (View.ld x0 rc1_x) (View.ld x1 rc1_w) (View.ld x2 rc1_b)⟩]
/-- Window 4's buffer after the body: the column of the block's row sums, one whole store. -/
def out1_4 (x0 : Vec F S5000x64 .f32) (x1 : Vec F S64x64 .f32) (x2 : Vec F S64 .f32) : Vec F S5000x1 .f32 :=
  View.canon [⟨rc1_s, k1_pay2 (View.ld x0 rc1_x) (View.ld x1 rc1_w) (View.ld x2 rc1_b)⟩]

theorem cover1_3 (p0 : Vec F S5000x64 .f32) (y : S5000x64.Idx) :
    ∃ pc ∈ ([⟨rc1_x, p0⟩] : List (View.Piece (Elt F) S5000x64 .f32)), y ∈ pc.1.set :=
  View.cover_of_tiled [⟨rc1_x, p0⟩] S5000x64.size (by rfl) y
theorem cover1_4 (p0 : Vec F S5000x1 .f32) (y : S5000x1.Idx) :
    ∃ pc ∈ ([⟨rc1_s, p0⟩] : List (View.Piece (Elt F) S5000x1 .f32)), y ∈ pc.1.set :=
  View.cover_of_tiled [⟨rc1_s, p0⟩] S5000x1.size (by rfl) y

/-! ## The body's triple -/

set_option maxHeartbeats 1000000 in
/-- From the three input buffers held whole at `x0`, `x1`, `x2` and the two output buffers at anything, the body runs to
    its return with the inputs as they were and the outputs at `out1_3`, `out1_4` of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__gcn_layer_kernel i arg1 harg1 arg2 harg2 arg3 harg3 arg4 harg4 arg5 harg5) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The region's proof data -/

/-- The arrays as the region finds them; after the body at point `t` each input's buffer at its block and each output's
    at the body's piece of the input blocks; the scoped rest and the generator register ride along; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layer

end
-- ==== Proof.KI.Region2.lean ====
/-
  The dense layer `h = max(x · W + b, 0)`, `s = row sums of h`, as the THIRD of the program's three pipelined
  kernel regions, at any float instance and at ANY contents `V` of the TensorCore's buffers on entry.

  A grid point `t` (20 of them) stages rows `5000 t … 5000 t + 4999` of `x` (window 0), all of `W` (window 1) and all of
  `b` (window 2); the body loads the three whole, stores `h`'s 5000 × 64 block whole into window 3's buffer and the
  5000 × 1 column of its row sums whole into window 4's. So after the body window 3 holds the single piece
  `out2_3` — the body's first payload of the three loads — and window 4 the single piece `out2_4`, each covering its
  buffer. From this the region's proof data (`dat2`) and the pipeline library's body obligation follow: inputs are read
  only, so every input buffer holds its window's block at every point, fetched there or carried over.
-/
import proofs.«169731_j81655918231565_1_alg».proof.Proof.Gen.KernelIdeal.Launch
import proofs.«169731_j81655918231565_1_alg».proof.Proof.Gen.KernelIdeal.Skeleton
import proofs.«169731_j81655918231565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of `x` staged at a point are in window 0's buffer when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- `W`, fetched once, is in window 1's buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- `b`, fetched once, is in window 2's buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rc2_x : Rect S5000x64 := Rect.unit (s := S5000x64) ![0, 0] S5000x64.size inb_S5000x64_S5000x64_0_0
abbrev rc2_w : Rect S64x64 := Rect.unit (s := S64x64) ![0, 0] S64x64.size inb_S64x64_S64x64_0_0
abbrev rc2_b : Rect S64 := Rect.unit (s := S64) ![0] S64.size inb_S64_S64_0
abbrev rc2_s : Rect S5000x1 := Rect.unit (s := S5000x1) ![0, 0] S5000x1.size inb_S5000x1_S5000x1_0_0

/-! ## What the body leaves in each output window's buffer -/

/-- Window 3's buffer after the body: the block of `h`, one whole store. -/
def out2_3 (x0 : Vec F S5000x64 .f32) (x1 : Vec F S64x64 .f32) (x2 : Vec F S64 .f32) : Vec F S5000x64 .f32 :=
  View.canon [⟨rc2_x, k2_pay1 (View.ld x0 rc2_x) (View.ld x1 rc2_w) (View.ld x2 rc2_b)⟩]
/-- Window 4's buffer after the body: the column of the block's row sums, one whole store. -/
def out2_4 (x0 : Vec F S5000x64 .f32) (x1 : Vec F S64x64 .f32) (x2 : Vec F S64 .f32) : Vec F S5000x1 .f32 :=
  View.canon [⟨rc2_s, k2_pay2 (View.ld x0 rc2_x) (View.ld x1 rc2_w) (View.ld x2 rc2_b)⟩]

theorem cover2_3 (p0 : Vec F S5000x64 .f32) (y : S5000x64.Idx) :
    ∃ pc ∈ ([⟨rc2_x, p0⟩] : List (View.Piece (Elt F) S5000x64 .f32)), y ∈ pc.1.set :=
  View.cover_of_tiled [⟨rc2_x, p0⟩] S5000x64.size (by rfl) y
theorem cover2_4 (p0 : Vec F S5000x1 .f32) (y : S5000x1.Idx) :
    ∃ pc ∈ ([⟨rc2_s, p0⟩] : List (View.Piece (Elt F) S5000x1 .f32)), y ∈ pc.1.set :=
  View.cover_of_tiled [⟨rc2_s, p0⟩] S5000x1.size (by rfl) y

/-! ## The body's triple -/

set_option maxHeartbeats 1000000 in
/-- From the three input buffers held whole at `x0`, `x1`, `x2` and the two output buffers at anything, the body runs to
    its return with the inputs as they were and the outputs at `out2_3`, `out2_4` of the inputs. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x1 .f32) (harg5 : arg5.IsWhole)
    (x0 : Vec F S5000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__gcn_layer_kernel i arg1 harg1 arg2 harg2 arg3 harg3 arg4 harg4 arg5 harg5) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The region's proof data -/

/-- The arrays as the region finds them; after the body at point `t` each input's buffer at its block and each output's
    at the body's piece of the input blocks; the scoped rest and the generator register ride along; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layer

end
-- ==== Proof.KI.Run.lean ====
/-
  The whole program as eleven segments — eight stretches of host operations and the three dense-layer regions between
  them — from the launch to the return, at any float instance.

  `W0 … W11` are the TensorCore's unscoped buffer contents at the twelve segment boundaries: the launch memory; after a
  host stretch, the stretch's operations applied in order (`StableHlo.after`); after a region, the region's five arrays at
  what its pipeline leaves and everything else as entered. Each region's proof data is taken at the contents its region
  is entered with. The run then says: every weakly fair execution of @main terminates, and EVERY unscoped buffer ends
  at `W11`. The frame claim (the ten arguments end as launched) and the two results' values are both read off this.
-/
import proofs.«169731_j81655918231565_1_alg».proof.Proof.KI.Region0
import proofs.«169731_j81655918231565_1_alg».proof.Proof.KI.Region1
import proofs.«169731_j81655918231565_1_alg».proof.Proof.KI.Region2
import proofs.«169731_j81655918231565_1_alg».proof.Proof.Gen.KernelIdeal.Regions

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- At launch. -/
abbrev W0 : Dev nD → Valuation τ sig (Elt F) := fun c b => m (c, b)
/-- After the constants and the two degree counts. -/
abbrev W1 : Dev nD → Valuation τ sig (Elt F) := fun c => StableHlo.after hostOps0 (W0 m c)
/-- After the out-degrees are clipped below at 1. -/
abbrev W2 : Dev nD → Valuation τ sig (Elt F) := fun c => StableHlo.after hostOps0_1 (W1 m c)
/-- After their inverse square roots, as a column. -/
abbrev W3 : Dev nD → Valuation τ sig (Elt F) := fun c => StableHlo.after hostOps0_2 (W2 m c)
/-- After the in-degrees are clipped below at 1. -/
abbrev W4 : Dev nD → Valuation τ sig (Elt F) := fun c => StableHlo.after hostOps0_3 (W3 m c)
/-- After the first message passing: region 0's entry. -/
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b

/-- After region 0: its arrays at what the pipeline leaves (an input's as entered, an output's the fold of its
    write-backs), every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- An input window's array leaves region 0 as it entered: the pipeline stages it and never writes it back. -/
theorem W6_in (c : Dev nD) (w : Fin cfg0.W) (hw : (cfg0.win w).isOut = false) :
    W6 m c (Proc.devRef .tc (Pipeline.arrRef spec0 w)) = W5 m c (Proc.devRef .tc (Pipeline.arrRef spec0 w)) :=
  (W6_arr m c w).trans (((dat0 (V5 m) c).arrAt_in w hw _).trans (A_eq0 (V5 m) c w))

/-- After the second message passing: region 1's entry. -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b

/-- After region 1: its arrays at what the pipeline leaves (an input's as entered, an output's the fold of its
    write-backs), every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- An input window's array leaves region 1 as it entered: the pipeline stages it and never writes it back. -/
theorem W8_in (c : Dev nD) (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (V7 m) c).arrAt_in w hw _).trans (A_eq1 (V7 m) c w))

/-- After the third message passing: region 2's entry. -/
abbrev W9 : Dev nD → Valuation τ sig (Elt F) := fun c => StableHlo.after hostOps2 (W8 m c)
abbrev V9 : (c : Dev nD) → (b : Ref sig .tc) → Buf (Elt F) ((c : Thread nD τ).loc b) := fun c b => W9 m c b

/-- After region 2: its arrays at what the pipeline leaves (an input's as entered, an output's the fold of its
    write-backs), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- An input window's array leaves region 2 as it entered: the pipeline stages it and never writes it back. -/
theorem W10_in (c : Dev nD) (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (V9 m) c).arrAt_in w hw _).trans (A_eq2 (V9 m) c w))

/-- After the two concatenations: the return. -/
abbrev W11 : Dev nD → Valuation τ sig (Elt F) := fun c => StableHlo.after hostOps3 (W10 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues,
    none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W11`, the generator register at some state. -/
abbrev Tₙ (c : Dev nD) : sProp 𝕄 := iprop(StableHlo.held (c : Thread nD τ) (Pipeline.ucRefs τ sig) (W11 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W5`, left with them at `W6`. Its five
    arrays are split out of the unscoped buffers and put back at what the pipeline leaves; the generator register goes
    into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W7`, left with them at `W8`. Its five
    arrays are split out of the unscoped buffers and put back at what the pipeline leaves; the generator register goes
    into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W9`, left with them at `W10`. Its five
    arrays are split out of the unscoped buffers and put back at what the pipeline leaves; the generator register goes
    into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)) ]

/-- The last host stretch's post is the last thread state beside the core's dues. -/
theorem last_link (c : Dev nD) :
    iprop(StableHlo.held (c : Thread nD τ) (Pipeline.ucRefs τ sig) (W11 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state every unscoped buffer of every core holds `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Layer

end
-- ==== Proof.KI.Args.lean ====
/-
  The frame of the whole program: no host stretch writes an argument array, and a region either does not touch it or
  stages it through an input window and never writes it back — so each of the ten arguments is, at the return, what it
  was at the launch.
-/
import proofs.«169731_j81655918231565_1_alg».proof.Proof.KI.Run

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

/-! ## A host stretch or a region leaves alone what it does not write -/

theorem keep1 (b : Ref sig .tc) (h : b ∉ hostOps0_W) : W1 m c (Proc.devRef .tc b) = W0 m c (Proc.devRef .tc b) := after_of_writes_sub hostOps0 _ hostOps0_writes h
theorem keep2 (b : Ref sig .tc) (h : b ∉ hostOps0_1_W) : W2 m c (Proc.devRef .tc b) = W1 m c (Proc.devRef .tc b) := after_of_writes_sub hostOps0_1 _ hostOps0_1_writes h
theorem keep3 (b : Ref sig .tc) (h : b ∉ hostOps0_2_W) : W3 m c (Proc.devRef .tc b) = W2 m c (Proc.devRef .tc b) := after_of_writes_sub hostOps0_2 _ hostOps0_2_writes h
theorem keep4 (b : Ref sig .tc) (h : b ∉ hostOps0_3_W) : W4 m c (Proc.devRef .tc b) = W3 m c (Proc.devRef .tc b) := after_of_writes_sub hostOps0_3 _ hostOps0_3_writes h
theorem keep5 (b : Ref sig .tc) (h : b ∉ hostOps0_4_W) : W5 m c (Proc.devRef .tc b) = W4 m c (Proc.devRef .tc b) := after_of_writes_sub hostOps0_4 _ hostOps0_4_writes h
theorem keep6 (b : Ref sig .tc) (h : ∀ w, Pipeline.arrRef spec0 w ≠ b) : W6 m c (Proc.devRef .tc b) = W5 m c (Proc.devRef .tc b) := W6_of_ne m c b h
theorem keep7 (b : Ref sig .tc) (h : b ∉ hostOps1_W) : W7 m c (Proc.devRef .tc b) = W6 m c (Proc.devRef .tc b) := after_of_writes_sub hostOps1 _ hostOps1_writes h
theorem keep8 (b : Ref sig .tc) (h : ∀ w, Pipeline.arrRef spec1 w ≠ b) : W8 m c (Proc.devRef .tc b) = W7 m c (Proc.devRef .tc b) := W8_of_ne m c b h
theorem keep9 (b : Ref sig .tc) (h : b ∉ hostOps2_W) : W9 m c (Proc.devRef .tc b) = W8 m c (Proc.devRef .tc b) := after_of_writes_sub hostOps2 _ hostOps2_writes h
theorem keep10 (b : Ref sig .tc) (h : ∀ w, Pipeline.arrRef spec2 w ≠ b) : W10 m c (Proc.devRef .tc b) = W9 m c (Proc.devRef .tc b) := W10_of_ne m c b h
theorem keep11 (b : Ref sig .tc) (h : b ∉ hostOps3_W) : W11 m c (Proc.devRef .tc b) = W10 m c (Proc.devRef .tc b) := after_of_writes_sub hostOps3 _ hostOps3_writes h

/-- What no host stretch before region 0 writes is, at region 0's entry, as launched. -/
theorem W5_of_kept (b : Ref sig .tc) (h0 : b ∉ hostOps0_W) (h1 : b ∉ hostOps0_1_W) (h2 : b ∉ hostOps0_2_W) (h3 : b ∉ hostOps0_3_W) (h4 : b ∉ hostOps0_4_W) :
    W5 m c (Proc.devRef .tc b) = m ((c.tc : Thread nD τ).loc b) :=
  (keep5 m c b h4).trans ((keep4 m c b h3).trans ((keep3 m c b h2).trans ((keep2 m c b h1).trans (keep1 m c b h0))))

/-- What no host stretch writes and every region leaves as entered is, at the return, as launched. -/
theorem W11_of_kept (b : Ref sig .tc) (h0 : b ∉ hostOps0_W) (h1 : b ∉ hostOps0_1_W) (h2 : b ∉ hostOps0_2_W) (h3 : b ∉ hostOps0_3_W) (h4 : b ∉ hostOps0_4_W)
    (h6 : W6 m c (Proc.devRef .tc b) = W5 m c (Proc.devRef .tc b)) (h7 : b ∉ hostOps1_W)
    (h8 : W8 m c (Proc.devRef .tc b) = W7 m c (Proc.devRef .tc b)) (h9 : b ∉ hostOps2_W)
    (h10 : W10 m c (Proc.devRef .tc b) = W9 m c (Proc.devRef .tc b)) (h11 : b ∉ hostOps3_W) :
    W11 m c (Proc.devRef .tc b) = m ((c.tc : Thread nD τ).loc b) :=
  (keep11 m c b h11).trans (h10.trans ((keep9 m c b h9).trans (h8.trans ((keep7 m c b h7).trans (h6.trans (W5_of_kept m c b h0 h1 h2 h3 h4))))))

theorem W11_arg0 : W11 m c (Proc.devRef .tc main_arg0) = m ((c.tc : Thread nD τ).loc main_arg0) :=
  W11_of_kept m c main_arg0 (by decide) (by decide) (by decide) (by decide) (by decide) (keep6 m c _ (by decide)) (by decide) (keep8 m c _ (by decide)) (by decide) (keep10 m c _ (by decide)) (by decide)
theorem W11_arg1 : W11 m c (Proc.devRef .tc main_arg1) = m ((c.tc : Thread nD τ).loc main_arg1) :=
  W11_of_kept m c main_arg1 (by decide) (by decide) (by decide) (by decide) (by decide) (keep6 m c _ (by decide)) (by decide) (keep8 m c _ (by decide)) (by decide) (keep10 m c _ (by decide)) (by decide)
theorem W11_arg2 : W11 m c (Proc.devRef .tc main_arg2) = m ((c.tc : Thread nD τ).loc main_arg2) :=
  W11_of_kept m c main_arg2 (by decide) (by decide) (by decide) (by decide) (by decide) (keep6 m c _ (by decide)) (by decide) (keep8 m c _ (by decide)) (by decide) (keep10 m c _ (by decide)) (by decide)
theorem W11_arg3 : W11 m c (Proc.devRef .tc main_arg3) = m ((c.tc : Thread nD τ).loc main_arg3) :=
  W11_of_kept m c main_arg3 (by decide) (by decide) (by decide) (by decide) (by decide) (keep6 m c _ (by decide)) (by decide) (keep8 m c _ (by decide)) (by decide) (keep10 m c _ (by decide)) (by decide)
theorem W11_arg4 : W11 m c (Proc.devRef .tc main_arg4) = m ((c.tc : Thread nD τ).loc main_arg4) :=
  W11_of_kept m c main_arg4 (by decide) (by decide) (by decide) (by decide) (by decide) (W6_in m c 1 rfl) (by decide) (keep8 m c _ (by decide)) (by decide) (keep10 m c _ (by decide)) (by decide)
theorem W11_arg5 : W11 m c (Proc.devRef .tc main_arg5) = m ((c.tc : Thread nD τ).loc main_arg5) :=
  W11_of_kept m c main_arg5 (by decide) (by decide) (by decide) (by decide) (by decide) (W6_in m c 2 rfl) (by decide) (keep8 m c _ (by decide)) (by decide) (keep10 m c _ (by decide)) (by decide)
theorem W11_arg6 : W11 m c (Proc.devRef .tc main_arg6) = m ((c.tc : Thread nD τ).loc main_arg6) :=
  W11_of_kept m c main_arg6 (by decide) (by decide) (by decide) (by decide) (by decide) (keep6 m c _ (by decide)) (by decide) (W8_in m c 1 rfl) (by decide) (keep10 m c _ (by decide)) (by decide)
theorem W11_arg7 : W11 m c (Proc.devRef .tc main_arg7) = m ((c.tc : Thread nD τ).loc main_arg7) :=
  W11_of_kept m c main_arg7 (by decide) (by decide) (by decide) (by decide) (by decide) (keep6 m c _ (by decide)) (by decide) (W8_in m c 2 rfl) (by decide) (keep10 m c _ (by decide)) (by decide)
theorem W11_arg8 : W11 m c (Proc.devRef .tc main_arg8) = m ((c.tc : Thread nD τ).loc main_arg8) :=
  W11_of_kept m c main_arg8 (by decide) (by decide) (by decide) (by decide) (by decide) (keep6 m c _ (by decide)) (by decide) (keep8 m c _ (by decide)) (by decide) (W10_in m c 1 rfl) (by decide)
theorem W11_arg9 : W11 m c (Proc.devRef .tc main_arg9) = m ((c.tc : Thread nD τ).loc main_arg9) :=
  W11_of_kept m c main_arg9 (by decide) (by decide) (by decide) (by decide) (by decide) (keep6 m c _ (by decide)) (by decide) (keep8 m c _ (by decide)) (by decide) (W10_in m c 2 rfl) (by decide)

/-- THE FRAME: every weakly fair execution of @main terminates, nothing faulting, with the ten argument arrays as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c),
     (h c _ (mem_uc main_arg4 (by decide))).trans (W11_arg4 m c),
     (h c _ (mem_uc main_arg5 (by decide))).trans (W11_arg5 m c),
     (h c _ (mem_uc main_arg6 (by decide))).trans (W11_arg6 m c),
     (h c _ (mem_uc main_arg7 (by decide))).trans (W11_arg7 m c),
     (h c _ (mem_uc main_arg8 (by decide))).trans (W11_arg8 m c),
     (h c _ (mem_uc main_arg9 (by decide))).trans (W11_arg9 m c)⟩)
    (run_all m ρ)

end Cert.KernelIdeal.Layer

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.Dense.lean ====
/-
  One dense layer at the ideal values: `h = max(x · W + b, 0)` and the sums of `h`'s rows.

  `cell x W b i j` is the entry `(i, j)` of `h` on the extended reals: the sum over `k` of `x(i, k) · W(k, j)`, plus
  `b(j)`, cut off below at zero. Both programs compute it:
  * the kernel body, on a block of 5000 rows — a product of the operands (rounded to a narrower format, which
    changes nothing at the ideal values) into a zero accumulator, the bias as one row broadcast over the block, the
    maximum with a zero splat; its second payload sums each row of that block over its 64 lanes and stands the sums up
    as a column;
  * the reference, on all 100000 rows at once — the host's matrix product, the bias broadcast in two steps, the maximum
    with a broadcast zero; and the host's sum along the second axis from a zero start.
  A matrix product read at an index is the sum over the contracted axis in both programs, so the two agree entry by
  entry; no property of the extended reals is used beyond `0 + s = s`.
-/
import proofs.«169731_j81655918231565_1_alg».proof.KernelIdeal
import proofs.«169731_j81655918231565_1_alg».proof.ReferenceIdeal
import proofs.«169731_j81655918231565_1_alg».proof.Proof.Gen.KernelIdeal.Skeleton
import proofs.«169731_j81655918231565_1_alg».proof.Proof.Gen.ReferenceIdeal
import proofs.«169731_j81655918231565_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-- Entry `(i, j)` of `max(x · W + b, 0)`. -/
def cell {n : ℕ} (x : (⟨2, ![n, 64]⟩ : Shape).Idx → EReal) (W : (⟨2, ![64, 64]⟩ : Shape).Idx → EReal)
    (b : (⟨1, ![64]⟩ : Shape).Idx → EReal) (i : Fin n) (j : Fin 64) : EReal :=
  max ((∑ k : Fin 64, x (ix2 i k) * W (ix2 k j)) + b (ix1 j)) (Ideal.ofBits .f32 0x00000000#32)

/-! ## The kernel body's payloads, on a block of 5000 rows -/

section Kernel

open Cert.KernelIdeal Cert.KernelIdeal.Gen

theorem kd_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem kd_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem kd_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem kd_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product into a zero accumulator, at `(p, q)`: the sum over the 64 contracted coordinates. -/
theorem blockProduct_apply {φ₁ φ₂ : FTy} (x : FVec Ideal S5000x64 φ₁) (W : FVec Ideal S64x64 φ₂) (p : Fin 5000) (q : Fin 64) :
    matmul dot_S5000x64_S64x64_S5000x64_1_0_0_1_n_n none x W (constant S5000x64 .f32 0x00000000#32) (ix2 p q)
      = ∑ k : Fin 64, x (ix2 p k) * W (ix2 k q) := by
  refine (Ideal.matmul_constant_zero_apply dot_S5000x64_S64x64_S5000x64_1_0_0_1_n_n none x W (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact kd_lhs0 _ _
    | ⟨1, _⟩ => exact (kd_lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (kd_rhs0 _ _).trans hk
    | ⟨1, _⟩ => exact kd_rhs1 _ _)
  rw [el, er]

/-- The body's first payload at `(p, q)` of the block is the layer's entry over the loaded rows. -/
theorem pay1_apply (x : Vec Ideal S5000x64 .f32) (W : Vec Ideal S64x64 .f32) (b : Vec Ideal S64 .f32) (p : Fin 5000) (q : Fin 64) :
    k0_pay1 (F := Ideal) x W b (ix2 p q) = cell x W b p q := by
  unfold k0_pay1 cell
  refine congrArg₂ max (congrArg₂ (· + ·) ?_ ?_) rfl
  · refine (blockProduct_apply _ _ p q).trans ?_
    refine Finset.sum_congr rfl fun k _ => ?_
    show shapeCast S5000x64 x shapeCasts_S5000x64_S5000x64 (ix2 p k) * W (ix2 k q) = _
    rw [shapeCast_self]
  · refine (broadcastTo_1b_ab_apply _ broadcasts_S1x64_S5000x64 p q).trans ?_
    exact shapeCast_a_1a_apply b shapeCasts_S64_S1x64 (0 : Fin 1) q

/-- A row of the block summed over its 64 lanes. -/
theorem laneSum_apply (src : FVec Ideal S5000x64 .f32) (hφ : FKind.Formats .f32)
    (hacc : (0x00000000#32 : BitVec 32) = FKind.add.neutral .f32 hφ) (r : Fin 5000) :
    multiReduction .add [1] S5000 src 0x00000000#32 reduces_S5000x64_S5000 hφ hacc (ix1 r) = ∑ q : Fin 64, src (ix2 r q) := by
  refine (Ideal.multiReduction_add_single src 0x00000000#32 reduces_S5000x64_S5000 hφ hacc (ix1 r)).trans ?_
  exact Finset.sum_congr rfl fun k _ => congrArg src (funext fun a => Fin.ext (by
    match a with
    | ⟨0, _⟩ => rfl
    | ⟨1, _⟩ => rfl))

/-- The body's second payload at row `p` of the column is the sum of the layer's entries along that row. -/
theorem pay2_apply (x : Vec Ideal S5000x64 .f32) (W : Vec Ideal S64x64 .f32) (b : Vec Ideal S64 .f32) (p : Fin 5000) (u : Fin 1) :
    k0_pay2 (F := Ideal) x W b (ix2 p u) = ∑ q : Fin 64, cell x W b p q := by
  unfold k0_pay2
  refine (Keepdims.shapeCast_a_a1_apply _ shapeCasts_S5000_S5000x1 p u).trans ?_
  refine (laneSum_apply _ _ _ p).trans ?_
  exact Finset.sum_congr rfl fun q _ => pay1_apply x W b p q

/-- The three regions run one and the same body. -/
theorem pay1_region1 : @k1_pay1 Ideal _ = @k0_pay1 Ideal _ := rfl
theorem pay2_region1 : @k1_pay2 Ideal _ = @k0_pay2 Ideal _ := rfl
theorem pay1_region2 : @k2_pay1 Ideal _ = @k0_pay1 Ideal _ := rfl
theorem pay2_region2 : @k2_pay2 Ideal _ = @k0_pay2 Ideal _ := rfl

end Kernel

/-! ## The reference's layer, on all 100000 rows -/

section Reference

open Cert.ReferenceIdeal Cert.ReferenceIdeal.Facts₀

/-- The reference's dense layer as one function of its three operands. -/
def layer (x : FVec Ideal S100000x64 .f32) (W : FVec Ideal S64x64 .f32) (b : FVec Ideal S64 .f32) : FVec Ideal S100000x64 .f32 :=
  maximumf (addf (Host.dotGeneral dot_S100000x64_S64x64_S100000x64_1_0_0_1_n_n none x W)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The reference's sum along the second axis, from a zero start. -/
def rowSums (h : FVec Ideal S100000x64 .f32) : FVec Ideal S100000 .f32 :=
  Host.reduceAdd h (constant S_ .f32 0x00000000#32) reducesTo_S100000x64_S100000_d1 h_S_

theorem rd_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem rd_lhs1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rd_rhs0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rd_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's matrix product at `(i, j)`: the same sum over the contracted axis. -/
theorem hostProduct_apply (x : FVec Ideal S100000x64 .f32) (W : FVec Ideal S64x64 .f32) (i : Fin 100000) (j : Fin 64) :
    Host.dotGeneral dot_S100000x64_S64x64_S100000x64_1_0_0_1_n_n none x W (ix2 i j) = ∑ k : Fin 64, x (ix2 i k) * W (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 i j) ((contrEquiv1 dot_S100000x64_S64x64_S100000x64_1_0_0_1_n_n 64 rfl rfl).symm k) = ix2 i k := funext fun a => Fin.ext (by
    match a with
    | ⟨0, _⟩ => exact rd_lhs0 _ _
    | ⟨1, _⟩ => exact (rd_lhs1 _ _).trans hk)
  have er : dot_S100000x64_S64x64_S100000x64_1_0_0_1_n_n.rhsIdx (ix2 i j) ((contrEquiv1 dot_S100000x64_S64x64_S100000x64_1_0_0_1_n_n 64 rfl rfl).symm k) = ix2 k j := funext fun a => Fin.ext (by
    match a with
    | ⟨0, _⟩ => exact (rd_rhs0 _ _).trans hk
    | ⟨1, _⟩ => exact rd_rhs1 _ _)
  rw [el, er]

/-- The reference's layer at `(i, j)` is the layer's entry. -/
theorem layer_apply (x : FVec Ideal S100000x64 .f32) (W : FVec Ideal S64x64 .f32) (b : FVec Ideal S64 .f32) (i : Fin 100000) (j : Fin 64) :
    layer x W b (ix2 i j) = cell x W b i j := by
  unfold layer cell
  refine congrArg₂ max (congrArg₂ (· + ·) (hostProduct_apply x W i j) ?_) ?_
  · refine (broadcastInDim_apply _ bcast_S1x64_S100000x64_0_1 _ (ix2 i j) (ix2 (0 : Fin 1) j) (fun a => match a with
      | ⟨0, _⟩ => by show 0 = if (1 : Nat) = 1 then 0 else i.val; rw [if_pos rfl]
      | ⟨1, _⟩ => by show j.val = if (64 : Nat) = 1 then 0 else j.val; rw [if_neg (by decide)])).trans ?_
    exact broadcastInDim_apply _ bcast_S64_S1x64_1 b (ix2 (0 : Fin 1) j) (ix1 j) (fun a => match a with
      | ⟨0, _⟩ => by show j.val = if (64 : Nat) = 1 then 0 else j.val; rw [if_neg (by decide)])
  · exact broadcastInDim_apply _ bcast_S_S100000x64 _ (ix2 i j) ix0 (fun a => a.elim0)

/-- The reference's row sum at `i`: the sum of the row's entries. -/
theorem rowSums_apply (h : FVec Ideal S100000x64 .f32) (i : Fin 100000) :
    rowSums h (ix1 i) = ∑ j : Fin 64, h (ix2 i j) := by
  unfold rowSums
  simp only [Host.reduceAdd, Ideal.hostReduceAdd_def]
  rw [Ideal.hostReduceAdd_single reducesTo_S100000x64_S100000_d1 (by decide)]
  refine (congrArg (· + _) (show constant (F := Ideal) S_ .f32 0x00000000#32 (Shape.Idx.first h_S_) = 0 from Ideal.ofBits_zero_f32)).trans ?_
  rw [zero_add]
  exact Finset.sum_congr rfl fun k _ => congrArg h (funext fun a => Fin.ext (by
    match a with
    | ⟨0, _⟩ => rfl
    | ⟨1, _⟩ => rfl))

end Reference

end Cert.Dense

end
-- ==== Proof.DenseArr.lean ====
/-
  The dense layer over all 100000 rows as whole-array functions, and the reference's forms of them.

  `layerArr x W b` is the [100000, 64] array whose entry `(i, j)` is the layer's entry; `sumCol x W b` is the
  [100000, 1] column of its row sums. The reference's layer IS `layerArr`, and the column relaid as a [100000] vector IS
  the reference's row sums of its layer: a column's entry `(r, 0)` sits at row-major position `r`, where the vector's
  entry `r` sits.
-/
import proofs.«169731_j81655918231565_1_alg».proof.Proof.Dense

noncomputable section

namespace Cert.Dense

open Idealize.ShloMosaic Idealize.ShloMosaic.ValueIdx

/-- The layer over all rows, as one function of the whole operands. -/
def layerArr (x : (⟨2, ![100000, 64]⟩ : Shape).Idx → EReal) (W : (⟨2, ![64, 64]⟩ : Shape).Idx → EReal)
    (b : (⟨1, ![64]⟩ : Shape).Idx → EReal) : (⟨2, ![100000, 64]⟩ : Shape).Idx → EReal :=
  fun i => cell x W b (i 0) (i 1)

/-- Its row sums, stood up as a column. -/
def sumCol (x : (⟨2, ![100000, 64]⟩ : Shape).Idx → EReal) (W : (⟨2, ![64, 64]⟩ : Shape).Idx → EReal)
    (b : (⟨1, ![64]⟩ : Shape).Idx → EReal) : (⟨2, ![100000, 1]⟩ : Shape).Idx → EReal :=
  fun i => ∑ q : Fin 64, cell x W b (i 0) q

/-- An entry of the layer depends on its row of `x` only. -/
theorem cell_congr_rows {n n' : ℕ} (X : (⟨2, ![n, 64]⟩ : Shape).Idx → EReal) (X' : (⟨2, ![n', 64]⟩ : Shape).Idx → EReal)
    (W W' : (⟨2, ![64, 64]⟩ : Shape).Idx → EReal) (b b' : (⟨1, ![64]⟩ : Shape).Idx → EReal) (i : Fin n) (i' : Fin n') (q : Fin 64)
    (hx : ∀ k : Fin 64, X (ix2 i k) = X' (ix2 i' k)) (hW : ∀ k : Fin 64, W (ix2 k q) = W' (ix2 k q)) (hb : b (ix1 q) = b' (ix1 q)) :
    cell X W b i q = cell X' W' b' i' q := by
  unfold cell
  exact congrArg₂ max (congrArg₂ (· + ·) (Finset.sum_congr rfl fun k _ => by rw [hx k, hW k]) hb) rfl

theorem hz2 : (![0, 0] : Fin 2 → Nat) = fun _ => 0 := funext fun a => by fin_cases a <;> rfl
theorem hz1 : (![0] : Fin 1 → Nat) = fun _ => 0 := funext fun a => by fin_cases a <;> rfl

section Kernel

open Cert.KernelIdeal Cert.KernelIdeal.Gen

/-! The three regions run one and the same body: each region's payloads are the first region's. -/

theorem k0_pay1_at (x : Vec Ideal S5000x64 .f32) (W : Vec Ideal S64x64 .f32) (b : Vec Ideal S64 .f32) (p : Fin 5000) (q : Fin 64) :
    k0_pay1 (F := Ideal) x W b (ix2 p q) = cell x W b p q := pay1_apply x W b p q
theorem k1_pay1_at (x : Vec Ideal S5000x64 .f32) (W : Vec Ideal S64x64 .f32) (b : Vec Ideal S64 .f32) (p : Fin 5000) (q : Fin 64) :
    k1_pay1 (F := Ideal) x W b (ix2 p q) = cell x W b p q := pay1_apply x W b p q
theorem k2_pay1_at (x : Vec Ideal S5000x64 .f32) (W : Vec Ideal S64x64 .f32) (b : Vec Ideal S64 .f32) (p : Fin 5000) (q : Fin 64) :
    k2_pay1 (F := Ideal) x W b (ix2 p q) = cell x W b p q := pay1_apply x W b p q
theorem k0_pay2_at (x : Vec Ideal S5000x64 .f32) (W : Vec Ideal S64x64 .f32) (b : Vec Ideal S64 .f32) (p : Fin 5000) (u : Fin 1) :
    k0_pay2 (F := Ideal) x W b (ix2 p u) = ∑ q : Fin 64, cell x W b p q := pay2_apply x W b p u
theorem k1_pay2_at (x : Vec Ideal S5000x64 .f32) (W : Vec Ideal S64x64 .f32) (b : Vec Ideal S64 .f32) (p : Fin 5000) (u : Fin 1) :
    k1_pay2 (F := Ideal) x W b (ix2 p u) = ∑ q : Fin 64, cell x W b p q := pay2_apply x W b p u
theorem k2_pay2_at (x : Vec Ideal S5000x64 .f32) (W : Vec Ideal S64x64 .f32) (b : Vec Ideal S64 .f32) (p : Fin 5000) (u : Fin 1) :
    k2_pay2 (F := Ideal) x W b (ix2 p u) = ∑ q : Fin 64, cell x W b p q := pay2_apply x W b p u

end Kernel

section Reference

open Cert.ReferenceIdeal Cert.ReferenceIdeal.Facts₀

/-- The reference's layer is the whole-array function. -/
theorem layer_eq (x : FVec Ideal S100000x64 .f32) (W : FVec Ideal S64x64 .f32) (b : FVec Ideal S64 .f32) :
    layer x W b = layerArr x W b := by
  funext i
  obtain ⟨p, q, rfl⟩ : ∃ (p : Fin 100000) (q : Fin 64), i = ix2 p q := ⟨i 0, i 1, eq_ix2 i⟩
  exact layer_apply x W b p q

/-- The column of row sums relaid as a vector is the reference's row sums of its layer. -/
theorem sumCol_relaid (x : FVec Ideal S100000x64 .f32) (W : FVec Ideal S64x64 .f32) (b : FVec Ideal S64 .f32)
    (h : (⟨2, ![100000, 1]⟩ : Shape).ShapeCasts ⟨1, ![100000]⟩) :
    (fun i => shapeCast (⟨1, ![100000]⟩ : Shape) (sumCol x W b) h i) = rowSums (layer x W b) := by
  funext i
  obtain ⟨r, rfl⟩ : ∃ r : Fin 100000, i = ix1 r := ⟨i 0, eq_ix1 i⟩
  rw [rowSums_apply, layer_eq]
  refine (shapeCast_apply (sumCol x W b) h (ix1 r) (ix2 r (0 : Fin 1)) (by
    rw [Shape.rowMajor_val_two, Shape.rowMajor_val_one]
    show r.val * 1 + 0 = r.val
    omega)).trans ?_
  rfl

end Reference

end Cert.Dense

end
-- ==== Proof.KI.Value0.lean ====
/-
  What region 0's two output arrays hold after the region, at the ideal values, as whole-array functions of the three
  input arrays as the region finds them.

  Grid point `t` stages rows `5000 t … 5000 t + 4999` of `x`, all of `W`, all of `b`, and writes back rows
  `5000 t … 5000 t + 4999` of `h` (window 3) and of the column of row sums (window 4). Entry `(p, q)` of the block it
  writes is the layer's entry over the staged rows, which is the layer's entry `(5000 t + p, q)` over the whole `x`:
  an entry reads only its own row of `x`. Row `r` of either output is covered by point `r / 5000`, so the twenty
  blocks tile each array, and the arrays end as `layerArr` and `sumCol` of the inputs.
-/
import proofs.«169731_j81655918231565_1_alg».proof.Proof.KI.Region0
import proofs.«169731_j81655918231565_1_alg».proof.Proof.DenseArr
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the twenty points: `x` and both outputs move down one block of rows per point; `W`
    and `b` stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_N0 (t : Fin cfg0.N) : t.val < 20 := lt_of_lt_of_eq t.isLt N_0

/-! ## The input blocks, read where the whole arrays hold them -/

theorem blk0_x (c : Dev nD) (t : Fin cfg0.N) (p : Fin 5000) (k : Fin 64) (i : Fin 100000) (hi : i.val = t.val * 5000 + p.val) :
    iblk0 V c 0 t (ix2 p k) = V c main_v26 (ix2 i k) := by
  obtain ⟨e00, e01, -⟩ := idx_facts0 t
  show V c main_v26 (((cfg0.win 0).blk t).view.emb (ix2 p k)) = V c main_v26 (ix2 i k)
  refine congrArg (V c main_v26) (funext fun a => Fin.ext ?_)
  match a with
  | ⟨0, _⟩ => show win0_0.index t (0 : Fin 2) * 5000 + 1 * p.val = i.val; omega
  | ⟨1, _⟩ => show win0_0.index t (1 : Fin 2) * 64 + 1 * k.val = k.val; omega

theorem blk0_w (c : Dev nD) (t : Fin cfg0.N) (k q : Fin 64) :
    iblk0 V c 1 t (ix2 k q) = V c main_arg4 (ix2 k q) := by
  obtain ⟨-, -, e10, e11, -⟩ := idx_facts0 t
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

theorem blk0_b (c : Dev nD) (t : Fin cfg0.N) (q : Fin 64) :
    iblk0 V c 2 t (ix1 q) = V c main_arg5 (ix1 q) := by
  obtain ⟨-, -, -, -, e20, -⟩ := idx_facts0 t
  show V c main_arg5 (((cfg0.win 2).blk t).view.emb (ix1 q)) = V c main_arg5 (ix1 q)
  refine congrArg (V c main_arg5) (funext fun a => Fin.ext ?_)
  match a with
  | ⟨0, _⟩ => show win0_2.index t (0 : Fin 1) * 64 + 1 * q.val = q.val; omega

/-- The layer's entry over the staged blocks is its entry over the whole arrays, 5000 t rows further down. -/
theorem cell_blk0 (c : Dev nD) (t : Fin cfg0.N) (p : Fin 5000) (q : Fin 64) (i : Fin 100000) (hi : i.val = t.val * 5000 + p.val) :
    Dense.cell (iblk0 V c 0 t) (iblk0 V c 1 t) (iblk0 V c 2 t) p q = Dense.cell (V c main_v26) (V c main_arg4) (V c main_arg5) i q :=
  Dense.cell_congr_rows _ _ _ _ _ _ p i q (fun k => blk0_x V c t p k i hi) (fun k => blk0_w V c t k q) (blk0_b V c t q)

/-! ## What each point writes back -/

theorem flushed0_3_eq (c : Dev nD) (t : Fin cfg0.N) :
    (dat0 V c).flushed 3 t = ((cfg0.win 3).blk t).view.read (Elt Ideal) (Dense.layerArr (V c main_v26) (V c main_arg4) (V c main_arg5)) := by
  show (cfg0.win 3).cut (grid0.coords t) ((dat0 V c).after 3 t) = _
  rw [after0_3]
  unfold out0_3
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, e30, e31, -⟩ := idx_facts0 t
  have ht := lt_N0 t
  funext j
  obtain ⟨p, q, rfl⟩ : ∃ (p : Fin 5000) (q : Fin 64), j = ix2 p q := ⟨j 0, j 1, eq_ix2 j⟩
  have hp := p.isLt
  have hemb : ((cfg0.win 3).blk t).view.emb (ix2 p q) = ix2 (⟨t.val * 5000 + p.val, by omega⟩ : Fin 100000) q := funext fun a => Fin.ext (by
    match a with
    | ⟨0, _⟩ => show win0_3.index t (0 : Fin 2) * 5000 + 1 * p.val = t.val * 5000 + p.val; omega
    | ⟨1, _⟩ => show win0_3.index t (1 : Fin 2) * 64 + 1 * q.val = q.val; omega)
  show k0_pay1 (F := Ideal) (iblk0 V c 0 t) (iblk0 V c 1 t) (iblk0 V c 2 t) (ix2 p q)
    = Dense.layerArr (V c main_v26) (V c main_arg4) (V c main_arg5) (((cfg0.win 3).blk t).view.emb (ix2 p q))
  refine (Dense.k0_pay1_at _ _ _ p q).trans ?_
  refine Eq.trans ?_ (congrArg (Dense.layerArr (V c main_v26) (V c main_arg4) (V c main_arg5)) hemb).symm
  exact cell_blk0 V c t p q ⟨t.val * 5000 + p.val, by omega⟩ rfl

theorem flushed0_4_eq (c : Dev nD) (t : Fin cfg0.N) :
    (dat0 V c).flushed 4 t = ((cfg0.win 4).blk t).view.read (Elt Ideal) (Dense.sumCol (V c main_v26) (V c main_arg4) (V c main_arg5)) := by
  show (cfg0.win 4).cut (grid0.coords t) ((dat0 V c).after 4 t) = _
  rw [after0_4]
  unfold out0_4
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, -, -, e40, e41⟩ := idx_facts0 t
  have ht := lt_N0 t
  funext j
  obtain ⟨p, u, rfl⟩ : ∃ (p : Fin 5000) (u : Fin 1), j = ix2 p u := ⟨j 0, j 1, eq_ix2 j⟩
  have hp := p.isLt
  have hu : u.val = 0 := by omega
  have hemb : ((cfg0.win 4).blk t).view.emb (ix2 p u) = ix2 (⟨t.val * 5000 + p.val, by omega⟩ : Fin 100000) (0 : Fin 1) := funext fun a => Fin.ext (by
    match a with
    | ⟨0, _⟩ => show win0_4.index t (0 : Fin 2) * 5000 + 1 * p.val = t.val * 5000 + p.val; omega
    | ⟨1, _⟩ => show win0_4.index t (1 : Fin 2) * 1 + 1 * u.val = 0; omega)
  show k0_pay2 (F := Ideal) (iblk0 V c 0 t) (iblk0 V c 1 t) (iblk0 V c 2 t) (ix2 p u)
    = Dense.sumCol (V c main_v26) (V c main_arg4) (V c main_arg5) (((cfg0.win 4).blk t).view.emb (ix2 p u))
  refine (Dense.k0_pay2_at _ _ _ p u).trans ?_
  refine Eq.trans ?_ (congrArg (Dense.sumCol (V c main_v26) (V c main_arg4) (V c main_arg5)) hemb).symm
  exact Finset.sum_congr rfl fun q _ => cell_blk0 V c t p q ⟨t.val * 5000 + p.val, by omega⟩ rfl

/-! ## The twenty blocks tile each output array -/

theorem mem_blk0_3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v27_0).slice (win0_3.rect t)).set ↔ _
  rw [View.set_slice_whole, Rect.mem_set_unit]
  exact Iff.rfl

theorem mem_blk0_4 (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v27_1).slice (win0_4.rect t)).set ↔ _
  rw [View.set_slice_whole, Rect.mem_set_unit]
  exact Iff.rfl

theorem tiles0_3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, e30, e31, -⟩ := idx_facts0 ⟨(i 0).val / 5000, hN⟩
  refine ⟨⟨(i 0).val / 5000, hN⟩, flush0_3 _, ?_⟩
  rw [mem_blk0_3]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 64 ≤ (i 1).val ∧ (i 1).val < win0_3.index ⟨(i 0).val / 5000, hN⟩ (1 : Fin 2) * 64 + 64
    rw [e31]; omega

theorem tiles0_4 (i : S100000x1.Idx) : ∃ t : Fin cfg0.N, (cfg0.win 4).flush t = true ∧ i ∈ ((cfg0.win 4).blk t).view.set := by
  have hi0 : (i 0).val < 100000 := (i 0).isLt
  have hi1 : (i 1).val < 1 := (i 1).isLt
  have hN : (i 0).val / 5000 < cfg0.N := by rw [show cfg0.N = 20 from N_0]; omega
  obtain ⟨-, -, -, -, -, -, -, e40, e41⟩ := idx_facts0 ⟨(i 0).val / 5000, hN⟩
  refine ⟨⟨(i 0).val / 5000, hN⟩, flush0_4 _, ?_⟩
  rw [mem_blk0_4]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hN⟩ (1 : Fin 2) * 1 ≤ (i 1).val ∧ (i 1).val < win0_4.index ⟨(i 0).val / 5000, hN⟩ (1 : Fin 2) * 1 + 1
    rw [e41]; omega

/-! ## The output arrays after the region -/

/-- `h`'s array after region 0: the layer of the inputs as the region finds them. -/
theorem final0_3 (c : Dev nD) :
    (dat0 V c).arrAt 3 cfg0.N = Dense.layerArr (V c main_v26) (V c main_arg4) (V c main_arg5) :=
  (dat0 V c).arrAt_eq_of_cover 3 _ (fun t _ => flushed0_3_eq V c t) tiles0_3

/-- The row sums' column after region 0. -/
theorem final0_4 (c : Dev nD) :
    (dat0 V c).arrAt 4 cfg0.N = Dense.sumCol (V c main_v26) (V c main_arg4) (V c main_arg5) :=
  (dat0 V c).arrAt_eq_of_cover 4 _ (fun t _ => flushed0_4_eq V c t) tiles0_4

end Cert.KernelIdeal.Layer

end
-- ==== Proof.KI.Value1.lean ====
/-
  What region 1's two output arrays hold after the region, at the ideal values, as whole-array functions of the three
  input arrays as the region finds them.

  Grid point `t` stages rows `5000 t … 5000 t + 4999` of `x`, all of `W`, all of `b`, and writes back rows
  `5000 t … 5000 t + 4999` of `h` (window 3) and of the column of row sums (window 4). Entry `(p, q)` of the block it
  writes is the layer's entry over the staged rows, which is the layer's entry `(5000 t + p, q)` over the whole `x`:
  an entry reads only its own row of `x`. Row `r` of either output is covered by point `r / 5000`, so the twenty
  blocks tile each array, and the arrays end as `layerArr` and `sumCol` of the inputs.
-/
import proofs.«169731_j81655918231565_1_alg».proof.Proof.KI.Region1
import proofs.«169731_j81655918231565_1_alg».proof.Proof.DenseArr
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the twenty points: `x` and both outputs move down one block of rows per point; `W`
    and `b` stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 20 := lt_of_lt_of_eq t.isLt N_1

/-! ## The input blocks, read where the whole arrays hold them -/

theorem blk1_x (c : Dev nD) (t : Fin cfg1.N) (p : Fin 5000) (k : Fin 64) (i : Fin 100000) (hi : i.val = t.val * 5000 + p.val) :
    iblk1 V c 0 t (ix2 p k) = V c main_v41 (ix2 i k) := by
  obtain ⟨e00, e01, -⟩ := idx_facts1 t
  show V c main_v41 (((cfg1.win 0).blk t).view.emb (ix2 p k)) = V c main_v41 (ix2 i k)
  refine congrArg (V c main_v41) (funext fun a => Fin.ext ?_)
  match a with
  | ⟨0, _⟩ => show win1_0.index t (0 : Fin 2) * 5000 + 1 * p.val = i.val; omega
  | ⟨1, _⟩ => show win1_0.index t (1 : Fin 2) * 64 + 1 * k.val = k.val; omega

theorem blk1_w (c : Dev nD) (t : Fin cfg1.N) (k q : Fin 64) :
    iblk1 V c 1 t (ix2 k q) = V c main_arg6 (ix2 k q) := by
  obtain ⟨-, -, e10, e11, -⟩ := idx_facts1 t
  show V c main_arg6 (((cfg1.win 1).blk t).view.emb (ix2 k q)) = V c main_arg6 (ix2 k q)
  refine congrArg (V c main_arg6) (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

theorem blk1_b (c : Dev nD) (t : Fin cfg1.N) (q : Fin 64) :
    iblk1 V c 2 t (ix1 q) = V c main_arg7 (ix1 q) := by
  obtain ⟨-, -, -, -, e20, -⟩ := idx_facts1 t
  show V c main_arg7 (((cfg1.win 2).blk t).view.emb (ix1 q)) = V c main_arg7 (ix1 q)
  refine congrArg (V c main_arg7) (funext fun a => Fin.ext ?_)
  match a with
  | ⟨0, _⟩ => show win1_2.index t (0 : Fin 1) * 64 + 1 * q.val = q.val; omega

/-- The layer's entry over the staged blocks is its entry over the whole arrays, 5000 t rows further down. -/
theorem cell_blk1 (c : Dev nD) (t : Fin cfg1.N) (p : Fin 5000) (q : Fin 64) (i : Fin 100000) (hi : i.val = t.val * 5000 + p.val) :
    Dense.cell (iblk1 V c 0 t) (iblk1 V c 1 t) (iblk1 V c 2 t) p q = Dense.cell (V c main_v41) (V c main_arg6) (V c main_arg7) i q :=
  Dense.cell_congr_rows _ _ _ _ _ _ p i q (fun k => blk1_x V c t p k i hi) (fun k => blk1_w V c t k q) (blk1_b V c t q)

/-! ## What each point writes back -/

theorem flushed1_3_eq (c : Dev nD) (t : Fin cfg1.N) :
    (dat1 V c).flushed 3 t = ((cfg1.win 3).blk t).view.read (Elt Ideal) (Dense.layerArr (V c main_v41) (V c main_arg6) (V c main_arg7)) := by
  show (cfg1.win 3).cut (grid1.coords t) ((dat1 V c).after 3 t) = _
  rw [after1_3]
  unfold out1_3
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, e30, e31, -⟩ := idx_facts1 t
  have ht := lt_N1 t
  funext j
  obtain ⟨p, q, rfl⟩ : ∃ (p : Fin 5000) (q : Fin 64), j = ix2 p q := ⟨j 0, j 1, eq_ix2 j⟩
  have hp := p.isLt
  have hemb : ((cfg1.win 3).blk t).view.emb (ix2 p q) = ix2 (⟨t.val * 5000 + p.val, by omega⟩ : Fin 100000) q := funext fun a => Fin.ext (by
    match a with
    | ⟨0, _⟩ => show win1_3.index t (0 : Fin 2) * 5000 + 1 * p.val = t.val * 5000 + p.val; omega
    | ⟨1, _⟩ => show win1_3.index t (1 : Fin 2) * 64 + 1 * q.val = q.val; omega)
  show k1_pay1 (F := Ideal) (iblk1 V c 0 t) (iblk1 V c 1 t) (iblk1 V c 2 t) (ix2 p q)
    = Dense.layerArr (V c main_v41) (V c main_arg6) (V c main_arg7) (((cfg1.win 3).blk t).view.emb (ix2 p q))
  refine (Dense.k1_pay1_at _ _ _ p q).trans ?_
  refine Eq.trans ?_ (congrArg (Dense.layerArr (V c main_v41) (V c main_arg6) (V c main_arg7)) hemb).symm
  exact cell_blk1 V c t p q ⟨t.val * 5000 + p.val, by omega⟩ rfl

theorem flushed1_4_eq (c : Dev nD) (t : Fin cfg1.N) :
    (dat1 V c).flushed 4 t = ((cfg1.win 4).blk t).view.read (Elt Ideal) (Dense.sumCol (V c main_v41) (V c main_arg6) (V c main_arg7)) := by
  show (cfg1.win 4).cut (grid1.coords t) ((dat1 V c).after 4 t) = _
  rw [after1_4]
  unfold out1_4
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, -, -, e40, e41⟩ := idx_facts1 t
  have ht := lt_N1 t
  funext j
  obtain ⟨p, u, rfl⟩ : ∃ (p : Fin 5000) (u : Fin 1), j = ix2 p u := ⟨j 0, j 1, eq_ix2 j⟩
  have hp := p.isLt
  have hu : u.val = 0 := by omega
  have hemb : ((cfg1.win 4).blk t).view.emb (ix2 p u) = ix2 (⟨t.val * 5000 + p.val, by omega⟩ : Fin 100000) (0 : Fin 1) := funext fun a => Fin.ext (by
    match a with
    | ⟨0, _⟩ => show win1_4.index t (0 : Fin 2) * 5000 + 1 * p.val = t.val * 5000 + p.val; omega
    | ⟨1, _⟩ => show win1_4.index t (1 : Fin 2) * 1 + 1 * u.val = 0; omega)
  show k1_pay2 (F := Ideal) (iblk1 V c 0 t) (iblk1 V c 1 t) (iblk1 V c 2 t) (ix2 p u)
    = Dense.sumCol (V c main_v41) (V c main_arg6) (V c main_arg7) (((cfg1.win 4).blk t).view.emb (ix2 p u))
  refine (Dense.k1_pay2_at _ _ _ p u).trans ?_
  refine Eq.trans ?_ (congrArg (Dense.sumCol (V c main_v41) (V c main_arg6) (V c main_arg7)) hemb).symm
  exact Finset.sum_congr rfl fun q _ => cell_blk1 V c t p q ⟨t.val * 5000 + p.val, by omega⟩ rfl

/-! ## The twenty blocks tile each output array -/

theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v42_0).slice (win1_3.rect t)).set ↔ _
  rw [View.set_slice_whole, Rect.mem_set_unit]
  exact Iff.rfl

theorem mem_blk1_4 (t : Fin cfg1.N) (i : S100000x1.Idx) :
    i ∈ ((cfg1.win 4).blk t).view.set ↔ ∀ a : Fin 2, win1_4.index t a * S5000x1.size a ≤ (i a).val ∧ (i a).val < win1_4.index t a * S5000x1.size a + S5000x1.size a := by
  show i ∈ ((View.whole main_v42_1).slice (win1_4.rect t)).set ↔ _
  rw [View.set_slice_whole, Rect.mem_set_unit]
  exact Iff.rfl

theorem tiles1_3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < cfg1.N := by rw [show cfg1.N = 20 from N_1]; omega
  obtain ⟨-, -, -, -, -, e30, e31, -⟩ := idx_facts1 ⟨(i 0).val / 5000, hN⟩
  refine ⟨⟨(i 0).val / 5000, hN⟩, flush1_3 _, ?_⟩
  rw [mem_blk1_3]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hN⟩ (1 : Fin 2) * 64 ≤ (i 1).val ∧ (i 1).val < win1_3.index ⟨(i 0).val / 5000, hN⟩ (1 : Fin 2) * 64 + 64
    rw [e31]; omega

theorem tiles1_4 (i : S100000x1.Idx) : ∃ t : Fin cfg1.N, (cfg1.win 4).flush t = true ∧ i ∈ ((cfg1.win 4).blk t).view.set := by
  have hi0 : (i 0).val < 100000 := (i 0).isLt
  have hi1 : (i 1).val < 1 := (i 1).isLt
  have hN : (i 0).val / 5000 < cfg1.N := by rw [show cfg1.N = 20 from N_1]; omega
  obtain ⟨-, -, -, -, -, -, -, e40, e41⟩ := idx_facts1 ⟨(i 0).val / 5000, hN⟩
  refine ⟨⟨(i 0).val / 5000, hN⟩, flush1_4 _, ?_⟩
  rw [mem_blk1_4]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 1 ≤ (i 1).val ∧ (i 1).val < win1_4.index ⟨(i 0).val / 5000, hN⟩ (1 : Fin 2) * 1 + 1
    rw [e41]; omega

/-! ## The output arrays after the region -/

/-- `h`'s array after region 1: the layer of the inputs as the region finds them. -/
theorem final1_3 (c : Dev nD) :
    (dat1 V c).arrAt 3 cfg1.N = Dense.layerArr (V c main_v41) (V c main_arg6) (V c main_arg7) :=
  (dat1 V c).arrAt_eq_of_cover 3 _ (fun t _ => flushed1_3_eq V c t) tiles1_3

/-- The row sums' column after region 1. -/
theorem final1_4 (c : Dev nD) :
    (dat1 V c).arrAt 4 cfg1.N = Dense.sumCol (V c main_v41) (V c main_arg6) (V c main_arg7) :=
  (dat1 V c).arrAt_eq_of_cover 4 _ (fun t _ => flushed1_4_eq V c t) tiles1_4

end Cert.KernelIdeal.Layer

end
-- ==== Proof.KI.Value2.lean ====
/-
  What region 2's two output arrays hold after the region, at the ideal values, as whole-array functions of the three
  input arrays as the region finds them.

  Grid point `t` stages rows `5000 t … 5000 t + 4999` of `x`, all of `W`, all of `b`, and writes back rows
  `5000 t … 5000 t + 4999` of `h` (window 3) and of the column of row sums (window 4). Entry `(p, q)` of the block it
  writes is the layer's entry over the staged rows, which is the layer's entry `(5000 t + p, q)` over the whole `x`:
  an entry reads only its own row of `x`. Row `r` of either output is covered by point `r / 5000`, so the twenty
  blocks tile each array, and the arrays end as `layerArr` and `sumCol` of the inputs.
-/
import proofs.«169731_j81655918231565_1_alg».proof.Proof.KI.Region2
import proofs.«169731_j81655918231565_1_alg».proof.Proof.DenseArr
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the twenty points: `x` and both outputs move down one block of rows per point; `W`
    and `b` stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem lt_N2 (t : Fin cfg2.N) : t.val < 20 := lt_of_lt_of_eq t.isLt N_2

/-! ## The input blocks, read where the whole arrays hold them -/

theorem blk2_x (c : Dev nD) (t : Fin cfg2.N) (p : Fin 5000) (k : Fin 64) (i : Fin 100000) (hi : i.val = t.val * 5000 + p.val) :
    iblk2 V c 0 t (ix2 p k) = V c main_v56 (ix2 i k) := by
  obtain ⟨e00, e01, -⟩ := idx_facts2 t
  show V c main_v56 (((cfg2.win 0).blk t).view.emb (ix2 p k)) = V c main_v56 (ix2 i k)
  refine congrArg (V c main_v56) (funext fun a => Fin.ext ?_)
  match a with
  | ⟨0, _⟩ => show win2_0.index t (0 : Fin 2) * 5000 + 1 * p.val = i.val; omega
  | ⟨1, _⟩ => show win2_0.index t (1 : Fin 2) * 64 + 1 * k.val = k.val; omega

theorem blk2_w (c : Dev nD) (t : Fin cfg2.N) (k q : Fin 64) :
    iblk2 V c 1 t (ix2 k q) = V c main_arg8 (ix2 k q) := by
  obtain ⟨-, -, e10, e11, -⟩ := idx_facts2 t
  show V c main_arg8 (((cfg2.win 1).blk t).view.emb (ix2 k q)) = V c main_arg8 (ix2 k q)
  refine congrArg (V c main_arg8) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

theorem blk2_b (c : Dev nD) (t : Fin cfg2.N) (q : Fin 64) :
    iblk2 V c 2 t (ix1 q) = V c main_arg9 (ix1 q) := by
  obtain ⟨-, -, -, -, e20, -⟩ := idx_facts2 t
  show V c main_arg9 (((cfg2.win 2).blk t).view.emb (ix1 q)) = V c main_arg9 (ix1 q)
  refine congrArg (V c main_arg9) (funext fun a => Fin.ext ?_)
  match a with
  | ⟨0, _⟩ => show win2_2.index t (0 : Fin 1) * 64 + 1 * q.val = q.val; omega

/-- The layer's entry over the staged blocks is its entry over the whole arrays, 5000 t rows further down. -/
theorem cell_blk2 (c : Dev nD) (t : Fin cfg2.N) (p : Fin 5000) (q : Fin 64) (i : Fin 100000) (hi : i.val = t.val * 5000 + p.val) :
    Dense.cell (iblk2 V c 0 t) (iblk2 V c 1 t) (iblk2 V c 2 t) p q = Dense.cell (V c main_v56) (V c main_arg8) (V c main_arg9) i q :=
  Dense.cell_congr_rows _ _ _ _ _ _ p i q (fun k => blk2_x V c t p k i hi) (fun k => blk2_w V c t k q) (blk2_b V c t q)

/-! ## What each point writes back -/

theorem flushed2_3_eq (c : Dev nD) (t : Fin cfg2.N) :
    (dat2 V c).flushed 3 t = ((cfg2.win 3).blk t).view.read (Elt Ideal) (Dense.layerArr (V c main_v56) (V c main_arg8) (V c main_arg9)) := by
  show (cfg2.win 3).cut (grid2.coords t) ((dat2 V c).after 3 t) = _
  rw [after2_3]
  unfold out2_3
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, e30, e31, -⟩ := idx_facts2 t
  have ht := lt_N2 t
  funext j
  obtain ⟨p, q, rfl⟩ : ∃ (p : Fin 5000) (q : Fin 64), j = ix2 p q := ⟨j 0, j 1, eq_ix2 j⟩
  have hp := p.isLt
  have hemb : ((cfg2.win 3).blk t).view.emb (ix2 p q) = ix2 (⟨t.val * 5000 + p.val, by omega⟩ : Fin 100000) q := funext fun a => Fin.ext (by
    match a with
    | ⟨0, _⟩ => show win2_3.index t (0 : Fin 2) * 5000 + 1 * p.val = t.val * 5000 + p.val; omega
    | ⟨1, _⟩ => show win2_3.index t (1 : Fin 2) * 64 + 1 * q.val = q.val; omega)
  show k2_pay1 (F := Ideal) (iblk2 V c 0 t) (iblk2 V c 1 t) (iblk2 V c 2 t) (ix2 p q)
    = Dense.layerArr (V c main_v56) (V c main_arg8) (V c main_arg9) (((cfg2.win 3).blk t).view.emb (ix2 p q))
  refine (Dense.k2_pay1_at _ _ _ p q).trans ?_
  refine Eq.trans ?_ (congrArg (Dense.layerArr (V c main_v56) (V c main_arg8) (V c main_arg9)) hemb).symm
  exact cell_blk2 V c t p q ⟨t.val * 5000 + p.val, by omega⟩ rfl

theorem flushed2_4_eq (c : Dev nD) (t : Fin cfg2.N) :
    (dat2 V c).flushed 4 t = ((cfg2.win 4).blk t).view.read (Elt Ideal) (Dense.sumCol (V c main_v56) (V c main_arg8) (V c main_arg9)) := by
  show (cfg2.win 4).cut (grid2.coords t) ((dat2 V c).after 4 t) = _
  rw [after2_4]
  unfold out2_4
  rw [View.canon_unit_zero Dense.hz2]
  simp only [View.ld_unit_zero (S := S5000x64) Dense.hz2, View.ld_unit_zero (S := S64x64) Dense.hz2, View.ld_unit_zero (S := S64) Dense.hz1]
  obtain ⟨-, -, -, -, -, -, -, e40, e41⟩ := idx_facts2 t
  have ht := lt_N2 t
  funext j
  obtain ⟨p, u, rfl⟩ : ∃ (p : Fin 5000) (u : Fin 1), j = ix2 p u := ⟨j 0, j 1, eq_ix2 j⟩
  have hp := p.isLt
  have hu : u.val = 0 := by omega
  have hemb : ((cfg2.win 4).blk t).view.emb (ix2 p u) = ix2 (⟨t.val * 5000 + p.val, by omega⟩ : Fin 100000) (0 : Fin 1) := funext fun a => Fin.ext (by
    match a with
    | ⟨0, _⟩ => show win2_4.index t (0 : Fin 2) * 5000 + 1 * p.val = t.val * 5000 + p.val; omega
    | ⟨1, _⟩ => show win2_4.index t (1 : Fin 2) * 1 + 1 * u.val = 0; omega)
  show k2_pay2 (F := Ideal) (iblk2 V c 0 t) (iblk2 V c 1 t) (iblk2 V c 2 t) (ix2 p u)
    = Dense.sumCol (V c main_v56) (V c main_arg8) (V c main_arg9) (((cfg2.win 4).blk t).view.emb (ix2 p u))
  refine (Dense.k2_pay2_at _ _ _ p u).trans ?_
  refine Eq.trans ?_ (congrArg (Dense.sumCol (V c main_v56) (V c main_arg8) (V c main_arg9)) hemb).symm
  exact Finset.sum_congr rfl fun q _ => cell_blk2 V c t p q ⟨t.val * 5000 + p.val, by omega⟩ rfl

/-! ## The twenty blocks tile each output array -/

theorem mem_blk2_3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v57_0).slice (win2_3.rect t)).set ↔ _
  rw [View.set_slice_whole, Rect.mem_set_unit]
  exact Iff.rfl

theorem mem_blk2_4 (t : Fin cfg2.N) (i : S100000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v57_1).slice (win2_4.rect t)).set ↔ _
  rw [View.set_slice_whole, Rect.mem_set_unit]
  exact Iff.rfl

theorem tiles2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 5000 < cfg2.N := by rw [show cfg2.N = 20 from N_2]; omega
  obtain ⟨-, -, -, -, -, e30, e31, -⟩ := idx_facts2 ⟨(i 0).val / 5000, hN⟩
  refine ⟨⟨(i 0).val / 5000, hN⟩, flush2_3 _, ?_⟩
  rw [mem_blk2_3]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hN⟩ (1 : Fin 2) * 64 ≤ (i 1).val ∧ (i 1).val < win2_3.index ⟨(i 0).val / 5000, hN⟩ (1 : Fin 2) * 64 + 64
    rw [e31]; omega

theorem tiles2_4 (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : (i 0).val / 5000 < cfg2.N := by rw [show cfg2.N = 20 from N_2]; omega
  obtain ⟨-, -, -, -, -, -, -, e40, e41⟩ := idx_facts2 ⟨(i 0).val / 5000, hN⟩
  refine ⟨⟨(i 0).val / 5000, hN⟩, flush2_4 _, ?_⟩
  rw [mem_blk2_4]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hN⟩ (1 : Fin 2) * 1 ≤ (i 1).val ∧ (i 1).val < win2_4.index ⟨(i 0).val / 5000, hN⟩ (1 : Fin 2) * 1 + 1
    rw [e41]; omega

/-! ## The output arrays after the region -/

/-- `h`'s array after region 2: the layer of the inputs as the region finds them. -/
theorem final2_3 (c : Dev nD) :
    (dat2 V c).arrAt 3 cfg2.N = Dense.layerArr (V c main_v56) (V c main_arg8) (V c main_arg9) :=
  (dat2 V c).arrAt_eq_of_cover 3 _ (fun t _ => flushed2_3_eq V c t) tiles2_3

/-- The row sums' column after region 2. -/
theorem final2_4 (c : Dev nD) :
    (dat2 V c).arrAt 4 cfg2.N = Dense.sumCol (V c main_v56) (V c main_arg8) (V c main_arg9) :=
  (dat2 V c).arrAt_eq_of_cover 4 _ (fun t _ => flushed2_4_eq V c t) tiles2_4

end Cert.KernelIdeal.Layer

end
-- ==== Proof.RefSpec.lean ====
/-
  The whole network at the ideal values, named piece by piece, and the reference's two results as those names.

  `degFactor a` is the column `1 / sqrt(max(1, deg))` where `deg` counts, per node, the edges whose endpoint list `a`
  names it. `spread x io ii a1 a2` is one message passing: scale the rows of `x` by `io`, gather a row per edge by
  the edges' sources `a1` (a negative index wrapped once), add each edge's row into its destination `a2`'s row, scale by
  `ii`. A layer's output is the dense layer of the spread features; the next layer spreads that output. The results are
  the three layers' outputs side by side, and their row sums end to end.
-/
import proofs.«169731_j81655918231565_1_alg».proof.Proof.DenseArr
import proofs.«169731_j81655918231565_1_alg».proof.Proof.Gen.ReferenceIdeal.Run

noncomputable section

namespace Cert.Gcn

open Idealize.ShloMosaic Idealize.ShloMosaic.TcCoe Idealize.SL.Sem
open Cert.ReferenceIdeal Cert.ReferenceIdeal.Facts₀

/-- An edge-endpoint list. -/
abbrev Ends : Type := (⟨S1600000, .i32⟩ : BufTy).Contents (Elt Ideal)

/-- `1 / sqrt(max(1, degree))` per node, as a column; the degree counted by adding a one per edge. -/
def degFactor (a : Ends) : FVec Ideal S100000x1 .f32 :=
  broadcastInDim S100000x1 ![0] bcast_S100000_S100000x1_0 (Host.rsqrt (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 a) (broadcastInDim S1600000 ![] bcast_S_S1600000 (constant S_ .f32 0x3F800000#32)))))

/-- One message passing over the edges. -/
def spread (x : FVec Ideal S100000x64 .f32) (io ii : FVec Ideal S100000x1 .f32) (a1 a2 : Ends) : FVec Ideal S100000x64 .f32 :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a2) (Host.gather gather_S100000x64_S1600000x1_S1600000x64_1_0_n_n_0_1_164 (mulf x (broadcastInDim S100000x64 ![0, 1] bcast_S100000x1_S100000x64_0_1 io)) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) (broadcastInDim S100000x64 ![0, 1] bcast_S100000x1_S100000x64_0_1 ii)

/-- The degree count: a one added per edge at its endpoint's node. -/
def degCount (a : Ends) : FVec Ideal S100000 .f32 :=
  Host.scatterAdd scatter_S100000_S1600000x1_S1600000_n_0_0_1 (broadcastInDim S100000 ![] bcast_S_S100000 (constant S_ .f32 0x00000000#32)) (broadcastInDim S1600000x1 ![0] bcast_S1600000_S1600000x1_0 a) (broadcastInDim S1600000 ![] bcast_S_S1600000 (constant S_ .f32 0x3F800000#32))
/-- The count cut off below at the splat of `one`. -/
def clipBelow (one : FVec Ideal S_ .f32) (d : FVec Ideal S100000 .f32) : FVec Ideal S100000 .f32 :=
  maximumf (broadcastInDim S100000 ![] bcast_S_S100000 (id one)) d
/-- The inverse square roots, as a column. -/
def invSqrtCol (d : FVec Ideal S100000 .f32) : FVec Ideal S100000x1 .f32 :=
  broadcastInDim S100000x1 ![0] bcast_S100000_S100000x1_0 (Host.rsqrt d)
/-- The scalar one. -/
def oneS : FVec Ideal S_ .f32 := constant S_ .f32 0x3F800000#32

theorem degFactor_eq (a : Ends) : degFactor a = invSqrtCol (clipBelow oneS (degCount a)) := rfl

variable (a0 : FVec Ideal S100000x64 .f32) (a1 a2 : Ends)
  (W0 : FVec Ideal S64x64 .f32) (b0 : FVec Ideal S64 .f32) (W1 : FVec Ideal S64x64 .f32) (b1 : FVec Ideal S64 .f32)
  (W2 : FVec Ideal S64x64 .f32) (b2 : FVec Ideal S64 .f32)

/-- The first layer's input and output. -/
def x0 : FVec Ideal S100000x64 .f32 := spread a0 (degFactor a1) (degFactor a2) a1 a2
def h0 : FVec Ideal S100000x64 .f32 := Dense.layer (x0 a0 a1 a2) W0 b0
/-- The second layer's. -/
def x1 : FVec Ideal S100000x64 .f32 := spread (h0 a0 a1 a2 W0 b0) (degFactor a1) (degFactor a2) a1 a2
def h1 : FVec Ideal S100000x64 .f32 := Dense.layer (x1 a0 a1 a2 W0 b0) W1 b1
/-- The third layer's. -/
def x2 : FVec Ideal S100000x64 .f32 := spread (h1 a0 a1 a2 W0 b0 W1 b1) (degFactor a1) (degFactor a2) a1 a2
def h2 : FVec Ideal S100000x64 .f32 := Dense.layer (x2 a0 a1 a2 W0 b0 W1 b1) W2 b2

/-- The three layers' row sums, end to end. -/
def pooled : FVec Ideal S300000 .f32 :=
  concatenate S300000 0 [⟨S100000, Dense.rowSums (h0 a0 a1 a2 W0 b0)⟩, ⟨S100000, Dense.rowSums (h1 a0 a1 a2 W0 b0 W1 b1)⟩, ⟨S100000, Dense.rowSums (h2 a0 a1 a2 W0 b0 W1 b1 W2 b2)⟩] concatenates_S100000_S100000_S100000_S300000_d0

/-- The three layers' outputs, side by side. -/
def stacked : FVec Ideal S100000x192 .f32 :=
  concatenate S100000x192 1 [⟨S100000x64, h0 a0 a1 a2 W0 b0⟩, ⟨S100000x64, h1 a0 a1 a2 W0 b0 W1 b1⟩, ⟨S100000x64, h2 a0 a1 a2 W0 b0 W1 b1 W2 b2⟩] concatenates_S100000x64_S100000x64_S100000x64_S100000x192_d1

/-! ## The reference's results are these -/

section

variable (m : (ℓ : Loc nD τ sig) → Buf (Elt Ideal) ℓ) (c : Dev nD)

set_option maxRecDepth 8192 in
theorem ref_pooled : Value.res_main_v73 (F := Ideal) m c
    = pooled (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := by
  unfold Value.res_main_v73 pooled h2 x2 h1 x1 h0 x0 spread degFactor Dense.layer Dense.rowSums
  rfl

set_option maxRecDepth 8192 in
theorem ref_stacked : Value.res_main_v74 (F := Ideal) m c
    = stacked (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := by
  unfold Value.res_main_v74 stacked h2 x2 h1 x1 h0 x0 spread degFactor Dense.layer
  rfl

end

end Cert.Gcn

end
-- ==== Proof.LibNary3.lean ====
/-
  A host operation over a LITERAL family of three operand references (a concatenation of three arrays), read at its own
  result reference: the function applied to each operand's contents at its own reference — so that a reading of the
  line of operations can go on into the operands, which it cannot do through `fun k => F (![x, a, b] k)`.
-/
import Idealize.ShloMosaic.Lib.StableHlo.Run

namespace Idealize.ShloMosaic.StableHlo

variable {τ : Topo} {sig : RefSig} {Val : EltTy → Type}

/-- A three-operand `nary` operation's result at its own reference is its function of the three operands' contents, each
    read at its own reference (the three-operand companion of the library's `nary4_result`). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.KI.Chain.lean ====
/-
  The kernel program's two results at the ideal values, read back from the return to the launch.

  The last host stretch relays each region's column of row sums as a vector and concatenates; the regions leave the
  dense layer of what they were entered with (the region value modules); each middle host stretch is one message
  passing of the previous layer's output; the first stretches compute the two degree factors and the first message
  passing from the arguments. No buffer is written twice, so a value written at one segment is still there at every
  later boundary. Put together: the results are the network's `pooled` and `stacked` of the launch arguments.
-/
import proofs.«169731_j81655918231565_1_alg».proof.Proof.KI.Args
import proofs.«169731_j81655918231565_1_alg».proof.Proof.KI.Value0
import proofs.«169731_j81655918231565_1_alg».proof.Proof.KI.Value1
import proofs.«169731_j81655918231565_1_alg».proof.Proof.KI.Value2
import proofs.«169731_j81655918231565_1_alg».proof.Proof.RefSpec
import proofs.«169731_j81655918231565_1_alg».proof.Proof.LibNary3

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)

/-! ## The host stretches, from any contents -/

/-- The second message passing, from the contents region 0 leaves. -/
theorem mid1 (Wa : Valuation τ sig (Elt Ideal)) :
    after hostOps1 Wa (Proc.devRef .tc main_v41)
      = Gcn.spread (Wa (Proc.devRef .tc main_v27_0)) (Wa (Proc.devRef .tc main_v9)) (Wa (Proc.devRef .tc main_v12)) (Wa (Proc.devRef .tc main_arg1)) (Wa (Proc.devRef .tc main_arg2)) := by
  dsimp only [hostOps1]
  after_results_simp
  rfl

/-- The third message passing, from the contents region 1 leaves. -/
theorem mid2 (Wa : Valuation τ sig (Elt Ideal)) :
    after hostOps2 Wa (Proc.devRef .tc main_v56)
      = Gcn.spread (Wa (Proc.devRef .tc main_v42_0)) (Wa (Proc.devRef .tc main_v9)) (Wa (Proc.devRef .tc main_v12)) (Wa (Proc.devRef .tc main_arg1)) (Wa (Proc.devRef .tc main_arg2)) := by
  dsimp only [hostOps2]
  after_results_simp
  rfl

/-- The layers' outputs, side by side. -/
theorem tail_stacked (Wa : Valuation τ sig (Elt Ideal)) :
    after hostOps3 Wa (Proc.devRef .tc main_v62)
      = concatenate S100000x192 1 [⟨S100000x64, Wa (Proc.devRef .tc main_v27_0)⟩, ⟨S100000x64, Wa (Proc.devRef .tc main_v42_0)⟩, ⟨S100000x64, Wa (Proc.devRef .tc main_v57_0)⟩]
          Facts₀.concatenates_S100000x64_S100000x64_S100000x64_S100000x192_d1 := by
  dsimp only [hostOps3]
  simp only [after_cons, after_nil]
  rw [nary3_result]
  repeat (first
    | rw [reshape_result]
    | (rw [nary_result_ne]; rotate_left; decide)
    | (rw [reshape_result_ne]; rotate_left; decide))
  rfl

/-- The columns of row sums, each relaid as a vector, end to end. -/
theorem tail_pooled (Wa : Valuation τ sig (Elt Ideal)) :
    after hostOps3 Wa (Proc.devRef .tc main_v61)
      = concatenate S300000 0 [⟨S100000, fun i => shapeCast S100000 (Wa (Proc.devRef .tc main_v27_1)) Facts₀.shapeCasts_S100000x1_S100000 i⟩,
          ⟨S100000, fun i => shapeCast S100000 (Wa (Proc.devRef .tc main_v42_1)) Facts₀.shapeCasts_S100000x1_S100000 i⟩,
          ⟨S100000, fun i => shapeCast S100000 (Wa (Proc.devRef .tc main_v57_1)) Facts₀.shapeCasts_S100000x1_S100000 i⟩]
          Facts₀.concatenates_S100000_S100000_S100000_S300000_d0 := by
  dsimp only [hostOps3]
  simp only [after_cons, after_nil]
  rw [nary_result_ne]; rotate_left; decide
  rw [nary3_result]
  repeat (first
    | rw [reshape_result]
    | (rw [nary_result_ne]; rotate_left; decide)
    | (rw [reshape_result_ne]; rotate_left; decide))
  rfl

/-! ## The first stretches, from the launch memory -/

/-- The stretches before region 0, one at a time, each from any contents. -/
theorem s0_v3 (Wa : Valuation τ sig (Elt Ideal)) : after hostOps0 Wa (Proc.devRef .tc main_v3) = Gcn.degCount (Wa (Proc.devRef .tc main_arg1)) := by
  dsimp only [hostOps0]
  after_results_simp
  rfl
theorem s0_v6 (Wa : Valuation τ sig (Elt Ideal)) : after hostOps0 Wa (Proc.devRef .tc main_v6) = Gcn.degCount (Wa (Proc.devRef .tc main_arg2)) := by
  dsimp only [hostOps0]
  after_results_simp
  rfl
theorem s0_c2 (Wa : Valuation τ sig (Elt Ideal)) : after hostOps0 Wa (Proc.devRef .tc main_cst_2) = Gcn.oneS := by
  dsimp only [hostOps0]
  after_results_simp
  rfl
theorem s1_v7 (Wa : Valuation τ sig (Elt Ideal)) : after hostOps0_1 Wa (Proc.devRef .tc main_v7) = Gcn.clipBelow (Wa (Proc.devRef .tc main_cst_2)) (Wa (Proc.devRef .tc main_v3)) := by
  dsimp only [hostOps0_1]
  after_results_simp
  rfl
theorem s2_v9 (Wa : Valuation τ sig (Elt Ideal)) : after hostOps0_2 Wa (Proc.devRef .tc main_v9) = Gcn.invSqrtCol (Wa (Proc.devRef .tc main_v7)) := by
  dsimp only [hostOps0_2]
  after_results_simp
  rfl
theorem s2_c3 (Wa : Valuation τ sig (Elt Ideal)) : after hostOps0_2 Wa (Proc.devRef .tc main_cst_3) = Gcn.oneS := by
  dsimp only [hostOps0_2]
  after_results_simp
  rfl
theorem s3_v10 (Wa : Valuation τ sig (Elt Ideal)) : after hostOps0_3 Wa (Proc.devRef .tc main_v10) = Gcn.clipBelow (Wa (Proc.devRef .tc main_cst_3)) (Wa (Proc.devRef .tc main_v6)) := by
  dsimp only [hostOps0_3]
  after_results_simp
  rfl
theorem s4_v12 (Wa : Valuation τ sig (Elt Ideal)) : after hostOps0_4 Wa (Proc.devRef .tc main_v12) = Gcn.invSqrtCol (Wa (Proc.devRef .tc main_v10)) := by
  dsimp only [hostOps0_4]
  after_results_simp
  rfl
theorem s4_v26 (Wa : Valuation τ sig (Elt Ideal)) :
    after hostOps0_4 Wa (Proc.devRef .tc main_v26)
      = Gcn.spread (Wa (Proc.devRef .tc main_arg0)) (Wa (Proc.devRef .tc main_v9)) (Gcn.invSqrtCol (Wa (Proc.devRef .tc main_v10))) (Wa (Proc.devRef .tc main_arg1)) (Wa (Proc.devRef .tc main_arg2)) := by
  dsimp only [hostOps0_4]
  after_results_simp
  rfl

/-- The out-degree factor is in place from the third stretch on. -/
theorem at3_io : W3 m c (Proc.devRef .tc main_v9) = Gcn.degFactor (m ((c.tc : Thread nD τ).loc main_arg1)) := by
  refine (s2_v9 (W2 m c)).trans ?_
  rw [show W2 m c (Proc.devRef .tc main_v7) = _ from s1_v7 (W1 m c), show W1 m c (Proc.devRef .tc main_cst_2) = _ from s0_c2 (W0 m c),
    show W1 m c (Proc.devRef .tc main_v3) = _ from s0_v3 (W0 m c)]
  rfl
/-- The clipped in-degree count after the fourth stretch. -/
theorem at4_din : W4 m c (Proc.devRef .tc main_v10) = Gcn.clipBelow Gcn.oneS (Gcn.degCount (m ((c.tc : Thread nD τ).loc main_arg2))) := by
  refine (s3_v10 (W3 m c)).trans ?_
  rw [show W3 m c (Proc.devRef .tc main_cst_3) = _ from s2_c3 (W2 m c),
    show W3 m c (Proc.devRef .tc main_v6) = _ from (keep3 m c main_v6 (by decide)).trans ((keep2 m c main_v6 (by decide)).trans (s0_v6 (W0 m c)))]

theorem head_io : W5 m c (Proc.devRef .tc main_v9) = Gcn.degFactor (m ((c.tc : Thread nD τ).loc main_arg1)) := (keep5 m c main_v9 (by decide)).trans ((keep4 m c main_v9 (by decide)).trans (at3_io m c))

theorem head_ii : W5 m c (Proc.devRef .tc main_v12) = Gcn.degFactor (m ((c.tc : Thread nD τ).loc main_arg2)) := by
  refine (s4_v12 (W4 m c)).trans ?_
  rw [at4_din]
  rfl

theorem head_x : W5 m c (Proc.devRef .tc main_v26) = Gcn.x0 (m ((c.tc : Thread nD τ).loc main_arg0)) (m ((c.tc : Thread nD τ).loc main_arg1)) (m ((c.tc : Thread nD τ).loc main_arg2)) := by
  refine (s4_v26 (W4 m c)).trans ?_
  rw [at4_din, show W4 m c (Proc.devRef .tc main_v9) = _ from (keep4 m c main_v9 (by decide)).trans (at3_io m c),
    show W4 m c (Proc.devRef .tc main_arg0) = _ from (keep4 m c main_arg0 (by decide)).trans ((keep3 m c main_arg0 (by decide)).trans ((keep2 m c main_arg0 (by decide)).trans ((keep1 m c main_arg0 (by decide)).trans (rfl)))),
    show W4 m c (Proc.devRef .tc main_arg1) = _ from (keep4 m c main_arg1 (by decide)).trans ((keep3 m c main_arg1 (by decide)).trans ((keep2 m c main_arg1 (by decide)).trans ((keep1 m c main_arg1 (by decide)).trans (rfl)))),
    show W4 m c (Proc.devRef .tc main_arg2) = _ from (keep4 m c main_arg2 (by decide)).trans ((keep3 m c main_arg2 (by decide)).trans ((keep2 m c main_arg2 (by decide)).trans ((keep1 m c main_arg2 (by decide)).trans (rfl))))]
  rfl

/-! ## What each boundary holds -/

theorem at5_a1 : W5 m c (Proc.devRef .tc main_arg1) = (m ((c.tc : Thread nD τ).loc main_arg1)) := W5_of_kept m c main_arg1 (by decide) (by decide) (by decide) (by decide) (by decide)
theorem at5_a2 : W5 m c (Proc.devRef .tc main_arg2) = (m ((c.tc : Thread nD τ).loc main_arg2)) := W5_of_kept m c main_arg2 (by decide) (by decide) (by decide) (by decide) (by decide)
theorem at5_w0 : W5 m c (Proc.devRef .tc main_arg4) = (m ((c.tc : Thread nD τ).loc main_arg4)) := W5_of_kept m c main_arg4 (by decide) (by decide) (by decide) (by decide) (by decide)
theorem at5_b0 : W5 m c (Proc.devRef .tc main_arg5) = (m ((c.tc : Thread nD τ).loc main_arg5)) := W5_of_kept m c main_arg5 (by decide) (by decide) (by decide) (by decide) (by decide)
theorem at5_w1 : W5 m c (Proc.devRef .tc main_arg6) = (m ((c.tc : Thread nD τ).loc main_arg6)) := W5_of_kept m c main_arg6 (by decide) (by decide) (by decide) (by decide) (by decide)
theorem at5_b1 : W5 m c (Proc.devRef .tc main_arg7) = (m ((c.tc : Thread nD τ).loc main_arg7)) := W5_of_kept m c main_arg7 (by decide) (by decide) (by decide) (by decide) (by decide)
theorem at5_w2 : W5 m c (Proc.devRef .tc main_arg8) = (m ((c.tc : Thread nD τ).loc main_arg8)) := W5_of_kept m c main_arg8 (by decide) (by decide) (by decide) (by decide) (by decide)
theorem at5_b2 : W5 m c (Proc.devRef .tc main_arg9) = (m ((c.tc : Thread nD τ).loc main_arg9)) := W5_of_kept m c main_arg9 (by decide) (by decide) (by decide) (by decide) (by decide)

/-- After region 0: the first layer's output and the column of its row sums. -/
theorem at6_h0 : W6 m c (Proc.devRef .tc main_v27_0) = Gcn.h0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (W6_arr m c 3).trans ((final0_3 (V5 m) c).trans ?_)
  show Dense.layerArr (W5 m c (Proc.devRef .tc main_v26)) (W5 m c (Proc.devRef .tc main_arg4)) (W5 m c (Proc.devRef .tc main_arg5)) = _
  rw [head_x, at5_w0, at5_b0]
  exact (Dense.layer_eq _ _ _).symm
theorem at6_s0 : W6 m c (Proc.devRef .tc main_v27_1) = Dense.sumCol (Gcn.x0 (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5)) := by
  refine (W6_arr m c 4).trans ((final0_4 (V5 m) c).trans ?_)
  show Dense.sumCol (W5 m c (Proc.devRef .tc main_v26)) (W5 m c (Proc.devRef .tc main_arg4)) (W5 m c (Proc.devRef .tc main_arg5)) = _
  rw [head_x, at5_w0, at5_b0]

theorem at6_io : W6 m c (Proc.devRef .tc main_v9) = Gcn.degFactor (m ((c.tc : Thread nD τ).loc main_arg1)) := (keep6 m c main_v9 (by decide)).trans (head_io m c)
theorem at6_ii : W6 m c (Proc.devRef .tc main_v12) = Gcn.degFactor (m ((c.tc : Thread nD τ).loc main_arg2)) := (keep6 m c main_v12 (by decide)).trans (head_ii m c)
theorem at6_a1 : W6 m c (Proc.devRef .tc main_arg1) = (m ((c.tc : Thread nD τ).loc main_arg1)) := (keep6 m c main_arg1 (by decide)).trans (at5_a1 m c)
theorem at6_a2 : W6 m c (Proc.devRef .tc main_arg2) = (m ((c.tc : Thread nD τ).loc main_arg2)) := (keep6 m c main_arg2 (by decide)).trans (at5_a2 m c)

/-- At region 1's entry: the second layer's input and operands. -/
theorem at7_x : W7 m c (Proc.devRef .tc main_v41) = Gcn.x1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (mid1 (W6 m c)).trans ?_
  rw [at6_h0, at6_io, at6_ii, at6_a1, at6_a2]
  rfl
theorem at7_w1 : W7 m c (Proc.devRef .tc main_arg6) = (m ((c.tc : Thread nD τ).loc main_arg6)) := (keep7 m c main_arg6 (by decide)).trans ((keep6 m c main_arg6 (by decide)).trans (at5_w1 m c))
theorem at7_b1 : W7 m c (Proc.devRef .tc main_arg7) = (m ((c.tc : Thread nD τ).loc main_arg7)) := (keep7 m c main_arg7 (by decide)).trans ((keep6 m c main_arg7 (by decide)).trans (at5_b1 m c))

/-- After region 1. -/
theorem at8_h1 : W8 m c (Proc.devRef .tc main_v42_0) = Gcn.h1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (W8_arr m c 3).trans ((final1_3 (V7 m) c).trans ?_)
  show Dense.layerArr (W7 m c (Proc.devRef .tc main_v41)) (W7 m c (Proc.devRef .tc main_arg6)) (W7 m c (Proc.devRef .tc main_arg7)) = _
  rw [at7_x, at7_w1, at7_b1]
  exact (Dense.layer_eq _ _ _).symm
theorem at8_s1 : W8 m c (Proc.devRef .tc main_v42_1) = Dense.sumCol (Gcn.x1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6)) (m ((c.tc : Thread nD τ).loc main_arg7)) := by
  refine (W8_arr m c 4).trans ((final1_4 (V7 m) c).trans ?_)
  show Dense.sumCol (W7 m c (Proc.devRef .tc main_v41)) (W7 m c (Proc.devRef .tc main_arg6)) (W7 m c (Proc.devRef .tc main_arg7)) = _
  rw [at7_x, at7_w1, at7_b1]

theorem at8_io : W8 m c (Proc.devRef .tc main_v9) = Gcn.degFactor (m ((c.tc : Thread nD τ).loc main_arg1)) := (keep8 m c main_v9 (by decide)).trans ((keep7 m c main_v9 (by decide)).trans (at6_io m c))
theorem at8_ii : W8 m c (Proc.devRef .tc main_v12) = Gcn.degFactor (m ((c.tc : Thread nD τ).loc main_arg2)) := (keep8 m c main_v12 (by decide)).trans ((keep7 m c main_v12 (by decide)).trans (at6_ii m c))
theorem at8_a1 : W8 m c (Proc.devRef .tc main_arg1) = (m ((c.tc : Thread nD τ).loc main_arg1)) := (keep8 m c main_arg1 (by decide)).trans ((keep7 m c main_arg1 (by decide)).trans (at6_a1 m c))
theorem at8_a2 : W8 m c (Proc.devRef .tc main_arg2) = (m ((c.tc : Thread nD τ).loc main_arg2)) := (keep8 m c main_arg2 (by decide)).trans ((keep7 m c main_arg2 (by decide)).trans (at6_a2 m c))

/-- At region 2's entry. -/
theorem at9_x : W9 m c (Proc.devRef .tc main_v56) = Gcn.x2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (mid2 (W8 m c)).trans ?_
  rw [at8_h1, at8_io, at8_ii, at8_a1, at8_a2]
  rfl
theorem at9_w2 : W9 m c (Proc.devRef .tc main_arg8) = (m ((c.tc : Thread nD τ).loc main_arg8)) := (keep9 m c main_arg8 (by decide)).trans ((keep8 m c main_arg8 (by decide)).trans ((keep7 m c main_arg8 (by decide)).trans ((keep6 m c main_arg8 (by decide)).trans (at5_w2 m c))))
theorem at9_b2 : W9 m c (Proc.devRef .tc main_arg9) = (m ((c.tc : Thread nD τ).loc main_arg9)) := (keep9 m c main_arg9 (by decide)).trans ((keep8 m c main_arg9 (by decide)).trans ((keep7 m c main_arg9 (by decide)).trans ((keep6 m c main_arg9 (by decide)).trans (at5_b2 m c))))

/-- After region 2: all three layers' outputs and columns are in place. -/
theorem at10_h2 : W10 m c (Proc.devRef .tc main_v57_0) = Gcn.h2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m c 3).trans ((final2_3 (V9 m) c).trans ?_)
  show Dense.layerArr (W9 m c (Proc.devRef .tc main_v56)) (W9 m c (Proc.devRef .tc main_arg8)) (W9 m c (Proc.devRef .tc main_arg9)) = _
  rw [at9_x, at9_w2, at9_b2]
  exact (Dense.layer_eq _ _ _).symm
theorem at10_s2 : W10 m c (Proc.devRef .tc main_v57_1) = Dense.sumCol (Gcn.x2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := by
  refine (W10_arr m c 4).trans ((final2_4 (V9 m) c).trans ?_)
  show Dense.sumCol (W9 m c (Proc.devRef .tc main_v56)) (W9 m c (Proc.devRef .tc main_arg8)) (W9 m c (Proc.devRef .tc main_arg9)) = _
  rw [at9_x, at9_w2, at9_b2]
theorem at10_h1 : W10 m c (Proc.devRef .tc main_v42_0) = Gcn.h1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := (keep10 m c main_v42_0 (by decide)).trans ((keep9 m c main_v42_0 (by decide)).trans (at8_h1 m c))
theorem at10_s1 : W10 m c (Proc.devRef .tc main_v42_1) = Dense.sumCol (Gcn.x1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6)) (m ((c.tc : Thread nD τ).loc main_arg7)) := (keep10 m c main_v42_1 (by decide)).trans ((keep9 m c main_v42_1 (by decide)).trans (at8_s1 m c))
theorem at10_h0 : W10 m c (Proc.devRef .tc main_v27_0) = Gcn.h0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := (keep10 m c main_v27_0 (by decide)).trans ((keep9 m c main_v27_0 (by decide)).trans ((keep8 m c main_v27_0 (by decide)).trans ((keep7 m c main_v27_0 (by decide)).trans (at6_h0 m c))))
theorem at10_s0 : W10 m c (Proc.devRef .tc main_v27_1) = Dense.sumCol (Gcn.x0 (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5)) := (keep10 m c main_v27_1 (by decide)).trans ((keep9 m c main_v27_1 (by decide)).trans ((keep8 m c main_v27_1 (by decide)).trans ((keep7 m c main_v27_1 (by decide)).trans (at6_s0 m c))))

/-! ## The two results -/

/-- A concatenation of three pieces of one shape depends on the pieces only. -/
theorem concat3_congr {α : Type} {t s : Shape} (a : Fin t.rank) (f0 f0' f1 f1' f2 f2' : s.Idx → α) (h : Shape.Concatenates [s, s, s] t a)
    (e0 : f0 = f0') (e1 : f1 = f1') (e2 : f2 = f2') :
    concatenate t a [⟨s, f0⟩, ⟨s, f1⟩, ⟨s, f2⟩] h = concatenate t a [⟨s, f0'⟩, ⟨s, f1'⟩, ⟨s, f2'⟩] h := by
  subst e0 e1 e2; rfl

/-- The second result: the three layers' outputs side by side. -/
theorem out_stacked : W11 m c (Proc.devRef .tc main_v62) = Gcn.stacked (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (tail_stacked (W10 m c)).trans ?_
  rw [at10_h0, at10_h1, at10_h2]
  rfl

/-- The first result: the three layers' row sums end to end. -/
theorem out_pooled : W11 m c (Proc.devRef .tc main_v61) = Gcn.pooled (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (tail_pooled (W10 m c)).trans ?_
  rw [at10_s0, at10_s1, at10_s2]
  refine (concat3_congr _ _ _ _ _ _ _ _
    (Dense.sumCol_relaid (Gcn.x0 (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5)) Facts₀.shapeCasts_S100000x1_S100000)
    (Dense.sumCol_relaid (Gcn.x1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6)) (m ((c.tc : Thread nD τ).loc main_arg7)) Facts₀.shapeCasts_S100000x1_S100000)
    (Dense.sumCol_relaid (Gcn.x2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) Facts₀.shapeCasts_S100000x1_S100000)).trans ?_
  rfl

/-! ## The run with both results named -/

/-- Every weakly fair execution of the kernel program at the ideal values terminates with the first result at the
    network's `pooled`, the second at its `stacked`, and the ten arguments as launched. -/
theorem run_results (ρ : Dev nD → PrngReg) : θ_run defs (onTc (τ := τ) (main (F := Ideal))) ⟨m, fun _ => 0, ρ⟩ (fun r => ∀ c : Dev nD,
      r.2.mem ((c.tc : Thread nD τ).loc main_v61) = Gcn.pooled (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v62) = Gcn.stacked (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v61 (by decide))).trans (out_pooled m c),
     (h c _ (mem_uc main_v62 (by decide))).trans (out_stacked m c),
     (h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c),
     (h c _ (mem_uc main_arg4 (by decide))).trans (W11_arg4 m c),
     (h c _ (mem_uc main_arg5 (by decide))).trans (W11_arg5 m c),
     (h c _ (mem_uc main_arg6 (by decide))).trans (W11_arg6 m c),
     (h c _ (mem_uc main_arg7 (by decide))).trans (W11_arg7 m c),
     (h c _ (mem_uc main_arg8 (by decide))).trans (W11_arg8 m c),
     (h c _ (mem_uc main_arg9 (by decide))).trans (W11_arg9 m c)⟩)
    (run_all m ρ)

end Cert.KernelIdeal.Layer

end
-- ==== Proof.lean ====
/-
  The certificate of a three-layer graph convolution network with per-node feature sums: the kernel program (message
  passing by gather and scatter-add on the host, each dense layer `max(x · W + b, 0)` with its row sums as a pipelined
  kernel over twenty blocks of 5000 rows) against a reference that computes every layer with one whole matrix product.

  Frames. Each kernel program is eleven segments — eight host stretches and the three dense-layer regions. A region's
  body loads its three staged blocks whole and stores its two output blocks whole, so its proof data is immediate;
  the segments chain from the launch to the return, and no segment changes an argument array. The reference is a
  straight line of host operations.

  Values, at the ideal values. A region leaves in its two output arrays the dense layer of its inputs and that
  layer's row sums: each grid point writes its own 5000 rows, an entry of the layer reads only its own row of `x`, and a
  matrix product read at an index is the sum over the contracted axis in the kernel and on the host alike. The host
  stretches between the regions are, operation for operation, the reference's message passing. So both programs end
  with the same two arrays: the layers' outputs side by side and their row sums end to end. Only that a sum does not
  depend on how it is arranged, and `0 + s = s`, are used of the extended reals; finiteness of the inputs is not needed.
-/
import proofs.«169731_j81655918231565_1_alg».proof.Defs
import proofs.«169731_j81655918231565_1_alg».proof.Proof.KB.Args
import proofs.«169731_j81655918231565_1_alg».proof.Proof.KI.Chain
import proofs.«169731_j81655918231565_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Layer.frame m ρ

theorem frame_kernelIdeal : Cert.frame_KernelIdeal := fun m ρ _ => Cert.KernelIdeal.Layer.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end at the network's `pooled` and `stacked` of the arguments; the arguments agree. -/
theorem algebraic : Cert.algebraic_KernelIdeal_ReferenceIdeal := by
  intro m ρ m' ρ' _ hagree
  refine ⟨_, _, Cert.KernelIdeal.Layer.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, -, e4, e5, e6, e7, e8, e9⟩ := hagree c
    rw [Cert.Gcn.ref_pooled, e0, e1, e2, e4, e5, e6, e7, e8, e9]
  · obtain ⟨e0, e1, e2, -, e4, e5, e6, e7, e8, e9⟩ := hagree c
    rw [Cert.Gcn.ref_stacked, e0, e1, e2, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
